-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x512 : Shape := ⟨3, ![64, 1024, 512]⟩
abbrev S64x1024 : Shape := ⟨2, ![64, 1024]⟩
abbrev S_ : Shape := ⟨0, ![]⟩

class Facts : Prop where
  bcast_S_S64x1024x512 : S_.BroadcastsInDim S64x1024x512 (![] : Fin 0 → Fin S64x1024x512.rank)
  reducesTo_S64x1024x512_S_d0_1_2 : S64x1024x512.ReducesTo [0, 1, 2] S_
  h_S_ : 0 < S_.numel

variable [Facts]

def fn {F : FTy → Type} [FloatOps F] (main_arg0 : FVec F S64x1024x512 .f32) (main_arg1 : IVec S64x1024 32) (main_arg2 : FVec F S64x1024x512 .f32) (main_arg3 : IVec S64x1024 32) : IVec S_ 1 :=
  let main_v0 : FVec F S64x1024x512 .f32 := Host.absf main_arg0
  let main_cst : FVec F S_ .f32 := constant S_ .f32 0x7F800000#32
  let main_v1 : FVec F S64x1024x512 .f32 := broadcastInDim S64x1024x512 ![] bcast_S_S64x1024x512 main_cst
  let main_v2 : IVec S64x1024x512 1 := cmpf .olt main_v0 main_v1
  let main_c : IVec S_ 1 := constantI S_ 1 1#1
  let main_v3 : IVec S_ 1 := (fun x v => Host.reduce IntOp.andi x v reducesTo_S64x1024x512_S_d0_1_2 h_S_) main_v2 main_c
  let main_v4 : FVec F S64x1024x512 .f32 := Host.absf main_arg2
  let main_cst_0 : FVec F S_ .f32 := constant S_ .f32 0x7F800000#32
  let main_v5 : FVec F S64x1024x512 .f32 := broadcastInDim S64x1024x512 ![] bcast_S_S64x1024x512 main_cst_0
  let main_v6 : IVec S64x1024x512 1 := cmpf .olt main_v4 main_v5
  let main_c_1 : IVec S_ 1 := constantI S_ 1 1#1
  let main_v7 : IVec S_ 1 := (fun x v => Host.reduce IntOp.andi x v reducesTo_S64x1024x512_S_d0_1_2 h_S_) main_v6 main_c_1
  let main_v8 : IVec S_ 1 := andi main_v3 main_v7
  main_v8
-- ==== Kernel.lean ====
abbrev S64x1024x512 : Shape := ⟨3, ![64, 1024, 512]⟩
abbrev S64x1024 : Shape := ⟨2, ![64, 1024]⟩
abbrev S64x1024x1 : Shape := ⟨3, ![64, 1024, 1]⟩
abbrev S64x1x1024 : Shape := ⟨3, ![64, 1, 1024]⟩
abbrev S1x1024x512 : Shape := ⟨3, ![1, 1024, 512]⟩
abbrev S1x1024x1 : Shape := ⟨3, ![1, 1024, 1]⟩
abbrev S1x1x1024 : Shape := ⟨3, ![1, 1, 1024]⟩
abbrev S1024x512 : Shape := ⟨2, ![1024, 512]⟩
abbrev S1024x1024 : Shape := ⟨2, ![1024, 1024]⟩
abbrev S1024x1 : Shape := ⟨2, ![1024, 1]⟩
abbrev S1x1024 : Shape := ⟨2, ![1, 1024]⟩
abbrev S1024 : Shape := ⟨1, ![1024]⟩

abbrev nBuf : Space → Nat
  | .hbm => 11
  | .vmem => 14
  | .smem => 0
  | _ => 0

abbrev bufTy : (tb : Table) → Fin (tcTables nBuf tb) → BufTy
  | .hbm, ⟨0, _⟩ => ⟨S64x1024x512, .f32⟩
  | .hbm, ⟨1, _⟩ => ⟨S64x1024, .i32⟩
  | .hbm, ⟨2, _⟩ => ⟨S64x1024x512, .f32⟩
  | .hbm, ⟨3, _⟩ => ⟨S64x1024, .i32⟩
  | .hbm, ⟨4, _⟩ => ⟨S64x1024, .f32⟩
  | .hbm, ⟨5, _⟩ => ⟨S64x1024, .f32⟩
  | .hbm, ⟨6, _⟩ => ⟨S64x1024x1, .f32⟩
  | .hbm, ⟨7, _⟩ => ⟨S64x1x1024, .f32⟩
  | .hbm, ⟨8, _⟩ => ⟨S64x1024x1, .f32⟩
  | .hbm, ⟨9, _⟩ => ⟨S64x1024x512, .f32⟩
  | .hbm, ⟨10, _⟩ => ⟨S64x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x1, .f32⟩
  | .local _ .vmem, ⟨5, _⟩ => ⟨S1x1024x1, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1, .f32⟩
  | .local _ .vmem, ⟨9, _⟩ => ⟨S1x1024x1, .f32⟩
  | .local _ .vmem, ⟨10, _⟩ => ⟨S1x1024x512, .f32⟩
  | .local _ .vmem, ⟨11, _⟩ => ⟨S1x1024x512, .f32⟩
  | .local _ .vmem, ⟨12, _⟩ => ⟨S1x1024x512, .f32⟩
  | .local _ .vmem, ⟨13, _⟩ => ⟨S1x1024x512, .f32⟩
  | _, _ => ⟨S64x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S64x1024_S64x1024x1_0_1 : S64x1024.BroadcastsInDim S64x1024x1 (![0, 1] : Fin 2 → Fin S64x1024x1.rank)
  bcast_S64x1024_S64x1x1024_0_2 : S64x1024.BroadcastsInDim S64x1x1024 (![0, 2] : Fin 2 → Fin S64x1x1024.rank)
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  reduces_S1024x1024_S1024_2 : S1024x1024.Reduces [0] S1024
  shapeCasts_S1024_S1x1024 : S1024.ShapeCasts S1x1024
  broadcasts_S1024x1_S1024x512 : S1024x1.Broadcasts S1024x512
  shapeCasts_S1024x512_S1x1024x512 : S1024x512.ShapeCasts S1x1024x512
  dot_S1024x512_S1024x512_S1024x1024_1_1_0_0_n_n_wf : DotDims.WF S1024x512 S1024x512 S1024x1024 [1] [1] [0] [0] [] []
  dot_S1024x1024_S1024x512_S1024x512_1_0_0_1_n_n_wf : DotDims.WF S1024x1024 S1024x512 S1024x512 [1] [0] [0] [1] [] []
  dot_S1024x1024_S1024x512_S1024x512_0_0_1_1_n_n_wf : DotDims.WF S1024x1024 S1024x512 S1024x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S64x1024x512.size a
  hwx0_0 : ∀ i : grid0.Coords, EltTy.bits .f32 = 32 ∨ (Rect.block (s := S64x1024x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S64x1024x512.size a
  hwx0_1 : ∀ i : grid0.Coords, EltTy.bits .f32 = 32 ∨ (Rect.block (s := S64x1024x512) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S64x1024x1.size a
  hwx0_2 : ∀ i : grid0.Coords, EltTy.bits .f32 = 32 ∨ (Rect.block (s := S64x1024x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S64x1x1024.size a
  hwx0_3 : ∀ i : grid0.Coords, EltTy.bits .f32 = 32 ∨ (Rect.block (s := S64x1x1024) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1.size a ≤ S64x1024x1.size a
  hwx0_4 : ∀ i : grid0.Coords, EltTy.bits .f32 = 32 ∨ (Rect.block (s := S64x1024x1) S1x1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x512.size a ≤ S64x1024x512.size a
  hwx0_5 : ∀ i : grid0.Coords, EltTy.bits .f32 = 32 ∨ (Rect.block (s := S64x1024x512) S1x1024x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x512.size a ≤ S64x1024x512.size a
  hwx0_6 : ∀ i : grid0.Coords, EltTy.bits .f32 = 32 ∨ (Rect.block (s := S64x1024x512) S1x1024x512.size (cc0_transform_6 i) (hinb0_6 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x1024_S1024x512_S1024x512_0_0_1_1_n_n : DotDims S1024x1024 S1024x512 S1024x512 where
  lhsContracting := [0]
  rhsContracting := [0]
  lhsNonContracting := [1]
  rhsNonContracting := [1]
  lhsBatch := []
  rhsBatch := []
  wf := dot_S1024x1024_S1024x512_S1024x512_0_0_1_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S1x1024x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S1x1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x1024x512 : Shape := ⟨3, ![64, 1024, 512]⟩
abbrev S64x1024 : Shape := ⟨2, ![64, 1024]⟩
abbrev S64x1024x1024 : Shape := ⟨3, ![64, 1024, 1024]⟩
abbrev S64x1x1024 : Shape := ⟨3, ![64, 1, 1024]⟩
abbrev S_ : Shape := ⟨0, ![]⟩
abbrev S64x1024x1 : Shape := ⟨3, ![64, 1024, 1]⟩

abbrev nBuf : Space → Nat
  | .hbm => 70
  | .vmem => 0
  | .smem => 0
  | _ => 0

abbrev bufTy : (tb : Table) → Fin (tcTables nBuf tb) → BufTy
  | .hbm, ⟨0, _⟩ => ⟨S64x1024x512, .f32⟩
  | .hbm, ⟨1, _⟩ => ⟨S64x1024, .i32⟩
  | .hbm, ⟨2, _⟩ => ⟨S64x1024x512, .f32⟩
  | .hbm, ⟨3, _⟩ => ⟨S64x1024, .i32⟩
  | .hbm, ⟨4, _⟩ => ⟨S64x1024, .f32⟩
  | .hbm, ⟨5, _⟩ => ⟨S64x1024, .f32⟩
  | .hbm, ⟨6, _⟩ => ⟨S64x1024x1024, .f32⟩
  | .hbm, ⟨7, _⟩ => ⟨S64x1x1024, .f32⟩
  | .hbm, ⟨8, _⟩ => ⟨S64x1024x1024, .f32⟩
  | .hbm, ⟨9, _⟩ => ⟨S64x1024x1024, .f32⟩
  | .hbm, ⟨10, _⟩ => ⟨S_, .f32⟩
  | .hbm, ⟨11, _⟩ => ⟨S64x1024, .f32⟩
  | .hbm, ⟨12, _⟩ => ⟨S_, .f32⟩
  | .hbm, ⟨13, _⟩ => ⟨S64x1024, .f32⟩
  | .hbm, ⟨14, _⟩ => ⟨S64x1024, .f32⟩
  | .hbm, ⟨15, _⟩ => ⟨S64x1024x1, .f32⟩
  | .hbm, ⟨16, _⟩ => ⟨S64x1024x1024, .f32⟩
  | .hbm, ⟨17, _⟩ => ⟨S64x1024x1024, .f32⟩
  | .hbm, ⟨18, _⟩ => ⟨S64x1024x1024, .f32⟩
  | .hbm, ⟨19, _⟩ => ⟨S_, .f32⟩
  | .hbm, ⟨20, _⟩ => ⟨S64x1024, .f32⟩
  | .hbm, ⟨21, _⟩ => ⟨S64x1024x1, .f32⟩
  | .hbm, ⟨22, _⟩ => ⟨S64x1024x1024, .f32⟩
  | .hbm, ⟨23, _⟩ => ⟨S64x1024x1024, .f32⟩
  | .hbm, ⟨24, _⟩ => ⟨S64x1024x1024, .f32⟩
  | .hbm, ⟨25, _⟩ => ⟨S64x1024x1024, .f32⟩
  | .hbm, ⟨26, _⟩ => ⟨S_, .f32⟩
  | .hbm, ⟨27, _⟩ => ⟨S64x1024, .f32⟩
  | .hbm, ⟨28, _⟩ => ⟨S64x1024x1, .f32⟩
  | .hbm, ⟨29, _⟩ => ⟨S_, .f32⟩
  | .hbm, ⟨30, _⟩ => ⟨S64x1024x1, .f32⟩
  | .hbm, ⟨31, _⟩ => ⟨S64x1024x1, .f32⟩
  | .hbm, ⟨32, _⟩ => ⟨S64x1024x1024, .f32⟩
  | .hbm, ⟨33, _⟩ => ⟨S64x1024x1024, .f32⟩
  | .hbm, ⟨34, _⟩ => ⟨S64x1024x1024, .f32⟩
  | .hbm, ⟨35, _⟩ => ⟨S64x1x1024, .f32⟩
  | .hbm, ⟨36, _⟩ => ⟨S64x1024x1024, .f32⟩
  | .hbm, ⟨37, _⟩ => ⟨S64x1024x1024, .f32⟩
  | .hbm, ⟨38, _⟩ => ⟨S_, .f32⟩
  | .hbm, ⟨39, _⟩ => ⟨S64x1024, .f32⟩
  | .hbm, ⟨40, _⟩ => ⟨S_, .f32⟩
  | .hbm, ⟨41, _⟩ => ⟨S64x1024, .f32⟩
  | .hbm, ⟨42, _⟩ => ⟨S64x1024, .f32⟩
  | .hbm, ⟨43, _⟩ => ⟨S64x1024x1, .f32⟩
  | .hbm, ⟨44, _⟩ => ⟨S64x1024x1024, .f32⟩
  | .hbm, ⟨45, _⟩ => ⟨S64x1024x1024, .f32⟩
  | .hbm, ⟨46, _⟩ => ⟨S64x1024x1024, .f32⟩
  | .hbm, ⟨47, _⟩ => ⟨S_, .f32⟩
  | .hbm, ⟨48, _⟩ => ⟨S64x1024, .f32⟩
  | .hbm, ⟨49, _⟩ => ⟨S64x1024x1, .f32⟩
  | .hbm, ⟨50, _⟩ => ⟨S64x1024x1024, .f32⟩
  | .hbm, ⟨51, _⟩ => ⟨S64x1024x1024, .f32⟩
  | .hbm, ⟨52, _⟩ => ⟨S64x1024x1024, .f32⟩
  | .hbm, ⟨53, _⟩ => ⟨S64x1024x1024, .f32⟩
  | .hbm, ⟨54, _⟩ => ⟨S_, .f32⟩
  | .hbm, ⟨55, _⟩ => ⟨S64x1024, .f32⟩
  | .hbm, ⟨56, _⟩ => ⟨S64x1024x1, .f32⟩
  | .hbm, ⟨57, _⟩ => ⟨S_, .f32⟩
  | .hbm, ⟨58, _⟩ => ⟨S64x1024x1, .f32⟩
  | .hbm, ⟨59, _⟩ => ⟨S64x1024x1, .f32⟩
  | .hbm, ⟨60, _⟩ => ⟨S64x1024x1024, .f32⟩
  | .hbm, ⟨61, _⟩ => ⟨S64x1024x1024, .f32⟩
  | .hbm, ⟨62, _⟩ => ⟨S64x1024x512, .f32⟩
  | .hbm, ⟨63, _⟩ => ⟨S64x1024x1, .f32⟩
  | .hbm, ⟨64, _⟩ => ⟨S64x1024x512, .f32⟩
  | .hbm, ⟨65, _⟩ => ⟨S64x1024x512, .f32⟩
  | .hbm, ⟨66, _⟩ => ⟨S64x1024x512, .f32⟩
  | .hbm, ⟨67, _⟩ => ⟨S64x1024x1, .f32⟩
  | .hbm, ⟨68, _⟩ => ⟨S64x1024x512, .f32⟩
  | .hbm, ⟨69, _⟩ => ⟨S64x1024x512, .f32⟩
  | _, _ => ⟨S64x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]

class Facts₀ : Prop where
  bcast_S64x1024_S64x1x1024_0_2 : S64x1024.BroadcastsInDim S64x1x1024 (![0, 2] : Fin 2 → Fin S64x1x1024.rank)
  bcast_S64x1x1024_S64x1024x1024_0_1_2 : S64x1x1024.BroadcastsInDim S64x1024x1024 (![0, 1, 2] : Fin 3 → Fin S64x1024x1024.rank)
  reducesTo_S64x1024x1024_S64x1024_d2 : S64x1024x1024.ReducesTo [2] S64x1024
  h_S_ : 0 < S_.numel
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S64x1024x1_S64x1024x1024_0_1_2 : S64x1024x1.BroadcastsInDim S64x1024x1024 (![0, 1, 2] : Fin 3 → Fin S64x1024x1024.rank)
  bcast_S_S64x1024x1 : S_.BroadcastsInDim S64x1024x1 (![] : Fin 0 → Fin S64x1024x1.rank)
  transposes_S64x1024x1024_S64x1024x1024_0_2_1 : S64x1024x1024.Transposes [0, 2, 1] S64x1024x1024
  bcast_S64x1024x1_S64x1024x512_0_1_2 : S64x1024x1.BroadcastsInDim S64x1024x512 (![0, 1, 2] : Fin 3 → Fin S64x1024x512.rank)
  dot_S64x1024x512_S64x1024x512_S64x1024x1024_2_2_1_1_0_0_wf : DotDims.WF S64x1024x512 S64x1024x512 S64x1024x1024 [2] [2] [1] [1] [0] [0]
  dot_S64x1024x1024_S64x1024x512_S64x1024x512_2_1_1_2_0_0_wf : DotDims.WF S64x1024x1024 S64x1024x512 S64x1024x512 [2] [1] [1] [2] [0] [0]

variable [Facts₀]

def dot_S64x1024x512_S64x1024x512_S64x1024x1024_2_2_1_1_0_0 : DotDims S64x1024x512 S64x1024x512 S64x1024x1024 where
  lhsContracting := [2]
  rhsContracting := [2]
  lhsNonContracting := [1]
  rhsNonContracting := [1]
  lhsBatch := [0]
  rhsBatch := [0]
  wf := dot_S64x1024x512_S64x1024x512_S64x1024x1024_2_2_1_1_0_0_wf
def dot_S64x1024x1024_S64x1024x512_S64x1024x512_2_1_1_2_0_0 : DotDims S64x1024x1024 S64x1024x512 S64x1024x512 where
  lhsContracting := [2]
  rhsContracting := [1]
  lhsNonContracting := [1]
  rhsNonContracting := [2]
  lhsBatch := [0]
  rhsBatch := [0]
  wf := dot_S64x1024x1024_S64x1024x512_S64x1024x512_2_1_1_2_0_0_wf

class Facts : Prop extends Facts₀ where

variable [Facts]
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibMatmulColsByCols.lean ====
/-
  A matrix product "columns by columns", read at an entry.

  The product of a [k, m] matrix A with a [k, n] matrix B that contracts the FIRST axis of both (Aᵀ · B), accumulated
  into the zero matrix, has at entry (a, b) the sum over the k contracted positions c of A(c, a) · B(c, b). The general
  statement sums over the indices of a one-axis "contraction shape"; that index set is carried onto the k coordinates,
  and the two operand indices it names are (c, a) and (c, b).
-/
import Idealize.ShloMosaic.PureOps.Ideal.Laws
import Idealize.ShloMosaic.Lib.ValueIdx

open scoped BigOperators

namespace Idealize.ShloMosaic.ValueIdx

open Idealize.ShloMosaic

/-- A `tpu.matmul` of `[k, m]` by `[k, n]`, both contracting axis 0, into the zero accumulator: entry `(a, b)` is
    `∑ c, A (c, a) * B (c, b)`. `w` is the dimension record's well-formedness, which a program states. -/
theorem matmul_cols_cols_apply {m k n : ℕ} {φ₁ φ₂ : FTy}
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (a : Fin m) (b : Fin n) :
    matmul (⟨[0], [0], [1], [1], [], [], w⟩ : DotDims ⟨2, ![k, m]⟩ ⟨2, ![k, n]⟩ ⟨2, ![m, n]⟩) prec A B
        (constant (F := Ideal) ⟨2, ![m, n]⟩ .f32 0x00000000#32) (ix2 a b)
      = ∑ c : Fin k, A (ix2 c a) * B (ix2 c b) := by
  show FloatOps.matmul _ prec A B _ (ix2 a b) = _
  rw [Ideal.matmul_constant_zero_apply,
    ← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibColumnSum.lean ====
/-
  The sum down the columns of a matrix, read at a column.

  Summing an [a, b] matrix over its FIRST axis leaves a vector of length b whose entry j is the sum of the a entries of
  column j. The general statement names the summed entries through the index "entry j with coordinate k inserted on the
  summed axis"; for a matrix and axis 0 that index is (k, j). (The companion for the second axis is the row sum.)
-/
import Idealize.ShloMosaic.PureOps.Ideal.Laws
import Idealize.ShloMosaic.Lib.ValueIdx

open scoped BigOperators

namespace Idealize.ShloMosaic.ValueIdx

open Idealize.ShloMosaic

/-- Inserting coordinate `k` on axis 0 over the column index `j` gives the matrix index `(k, j)`. -/
theorem reduces_cols_lift {a b : ℕ} (h : (⟨2, ![a, b]⟩ : Shape).Reduces [0] ⟨1, ![b]⟩) (j : Fin b) (k : Fin a) :
    h.lift (ix1 j) k = ix2 k j := by
  funext ax; apply Fin.ext
  show h.liftVal (ix1 j) k.val ax = (ix2 k j ax).val
  unfold Shape.Reduces.liftVal
  match ax with
  | ⟨0, _⟩ => rfl
  | ⟨1, _⟩ => rfl

/-- The sum of an `[a, b]` matrix over axis 0, at the exact extended reals, read at column `j`: the sum of that column. -/
theorem multiReduction_add_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  exact Finset.sum_congr rfl fun k _ => congrArg src (reduces_cols_lift h j k)

end Idealize.ShloMosaic.ValueIdx
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibMatmulRowsByRows.lean ====
/-
  A matrix product "rows by rows", read at an entry.

  The product of an [m, k] matrix A with an [n, k] matrix B that contracts the SECOND axis of both (A · Bᵀ), accumulated
  into the zero matrix, has at entry (a, b) the sum over the k contracted positions c of A(a, c) · B(b, c). At the
  ideal values the product is the exact sum, so nothing of a chunking or an order of accumulation is left in it.
-/
import Idealize.ShloMosaic.PureOps.Ideal.Laws
import Idealize.ShloMosaic.Lib.ValueIdx

noncomputable section

namespace Idealize.ShloMosaic.ValueIdx

open Idealize.ShloMosaic

/-- A `tpu.matmul` of `[m, k]` by `[n, k]`, both contracting axis 1, into the zero accumulator: entry `(a, b)` is
    `∑ c, A (a, c) * B (b, c)`. `w` is the dimension record's well-formedness, which a program states. -/
theorem matmul_rows_rows_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Idealize.ShloMosaic.ValueIdx

end
-- ==== Proof.BlockPieces.lean ====
/-
  The kernel body's small pieces read at an entry: the two [1, 1024, 512] blocks as [1024, 512] matrices, the two
  mask columns, and the similarity matrix of one batch, whose entry (p, h) is the inner product of premise row p and
  hypothesis row h (the matrix unit's product of the two blocks contracting their second axes, from a zero accumulator).
-/
import proofs.«105354_j3882650436316_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«105354_j3882650436316_2_alg».proof.Proof.LibMatmulRowsByRows

open scoped BigOperators

noncomputable section

namespace Cert.CoAttention.Block

open Cert.KernelIdeal Cert.KernelIdeal.Gen Idealize.ShloMosaic Idealize.ShloMosaic.ValueIdx

/-- The premise block as a matrix: entry (p, c) is the block's (0, p, c). -/
theorem premiseRows (v0 : Vec Ideal S1x1024x512 .f32) (p : Fin 1024) (c : Fin 512) :
    k0_pay3 (F := Ideal) v0 (ix2 p c) = v0 (ix3 (0 : Fin 1) p c) := by
  unfold k0_pay3
  exact shapeCast_1ab_ab_apply v0 _ p c

/-- The hypothesis block as a matrix: entry (h, c) is the block's (0, h, c). -/
theorem hypothesisRows (v2 : Vec Ideal S1x1024x512 .f32) (h : Fin 1024) (c : Fin 512) :
    k0_pay4 (F := Ideal) v2 (ix2 h c) = v2 (ix3 (0 : Fin 1) h c) := by
  unfold k0_pay4
  exact shapeCast_1ab_ab_apply v2 _ h c

/-- A mask column block [1, 1024, 1] as a [1024, 1] column. -/
theorem premiseMaskColumn (v7 : Vec Ideal S1x1024x1 .f32) (p : Fin 1024) (u : Fin 1) :
    k0_pay6 (F := Ideal) v7 (ix2 p u) = v7 (ix3 (0 : Fin 1) p u) := by
  unfold k0_pay6
  exact shapeCast_1ab_ab_apply v7 _ p u

/-- The other mask column block likewise. -/
theorem hypothesisMaskColumn (v11 : Vec Ideal S1x1024x1 .f32) (h : Fin 1024) (u : Fin 1) :
    k0_pay7 (F := Ideal) v11 (ix2 h u) = v11 (ix3 (0 : Fin 1) h u) := by
  unfold k0_pay7
  exact shapeCast_1ab_ab_apply v11 _ h u

/-- The similarity of premise row p and hypothesis row h: the inner product of the two rows. -/
theorem similarity (v0 v2 : Vec Ideal S1x1024x512 .f32) (p h : Fin 1024) :
    k0_pay5 (F := Ideal) v0 v2 (ix2 p h) = ∑ c : Fin 512, v0 (ix3 (0 : Fin 1) p c) * v2 (ix3 (0 : Fin 1) h c) := by
  unfold k0_pay5
  refine (matmul_rows_rows_apply dot_S1024x512_S1024x512_S1024x1024_1_1_0_0_n_n_wf none (k0_pay3 (F := Ideal) v0) (k0_pay4 (F := Ideal) v2) p h).trans ?_
  exact Finset.sum_congr rfl fun c _ => by rw [premiseRows, hypothesisRows]

end Cert.CoAttention.Block

end
-- ==== Proof.LibLaneSum.lean ====
/-
  The sum along the rows of a matrix, read at a row.

  Summing an [a, b] matrix over its second axis leaves a vector of length a whose entry i is the sum of the b entries
  of row i. The general statement names the summed entries through the index "entry i with coordinate k inserted on the
  summed axis"; for a matrix that index is simply (i, k).
-/
import Idealize.ShloMosaic.PureOps.Ideal.Laws
import Idealize.ShloMosaic.Lib.ValueIdx

open scoped BigOperators

namespace Idealize.ShloMosaic.ValueIdx

open Idealize.ShloMosaic

/-- Inserting coordinate `k` on axis 1 over the row index `i` gives the matrix index `(i, k)`. -/
theorem reduces_rows_lift {a b : ℕ} (h : (⟨2, ![a, b]⟩ : Shape).Reduces [1] ⟨1, ![a]⟩) (i : Fin a) (k : Fin b) :
    h.lift (ix1 i) k = ix2 i k := by
  funext ax; apply Fin.ext
  show h.liftVal (ix1 i) k.val ax = (ix2 i k ax).val
  unfold Shape.Reduces.liftVal
  match ax with
  | ⟨0, _⟩ => rfl
  | ⟨1, _⟩ => rfl

/-- The sum of an `[a, b]` matrix over axis 1, at the exact extended reals, read at row `i`: the sum of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ c : Fin b, src (ix2 i c) := by
  refine (Ideal.multiReduction_add_single src acc h hφ hacc (ix1 i)).trans ?_
  exact Finset.sum_congr rfl fun c _ => congrArg src (reduces_rows_lift h i c)

end Idealize.ShloMosaic.ValueIdx
-- ==== Proof.LibLaneMax.lean ====
/-
  The maximum along the rows of a matrix, read at a row.

  Taking the maximum of an [a, b] matrix over its second axis, started from an accumulator word, leaves a vector of
  length a whose entry i is the maximum of that word's value and the b entries of row i — the fold of `max` over the
  row's coordinates. The general statement names the entries through the index "entry i with coordinate k inserted
  on the reduced axis"; for a matrix that index is (i, k). (The companion for a sum is `multiReduction_add_rows_apply`.)
-/
import proofs.«105354_j3882650436316_2_alg».proof.Proof.LibLaneSum

namespace Idealize.ShloMosaic.ValueIdx

open Idealize.ShloMosaic

/-- The maximum of an `[a, b]` matrix over axis 1, at the exact extended reals, read at row `i`: the fold of `max`
    from the accumulator's value over that row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (FloatOps.ofBits (F := Ideal) φ acc) (fun c => src (ix2 i c)) := by
  refine (Ideal.multiReduction_maximumf_single src acc h hφ hacc (ix1 i)).trans ?_
  exact congrArg (fun f => (Finset.univ : Finset (Fin b)).fold max (FloatOps.ofBits (F := Ideal) φ acc) f)
    (funext fun c => congrArg src (reduces_rows_lift h i c))

end Idealize.ShloMosaic.ValueIdx
-- ==== Proof.LibColumnMax.lean ====
/-
  The maximum down the columns of a matrix, read at a column.

  Taking the maximum of an [a, b] matrix over its FIRST axis, started from an accumulator word, leaves a vector of
  length b whose entry j is the maximum of that word's value and the a entries of column j — the fold of `max` over
  the column's coordinates. The general statement names the entries through the index "entry j with coordinate k
  inserted on the reduced axis"; for a matrix and axis 0 that index is (k, j). (The companions are the column sum and
  the row maximum.)
-/
import proofs.«105354_j3882650436316_2_alg».proof.Proof.LibColumnSum

namespace Idealize.ShloMosaic.ValueIdx

open Idealize.ShloMosaic

/-- The maximum of an `[a, b]` matrix over axis 0, at the exact extended reals, read at column `j`: the fold of `max`
    from the accumulator's value over that column. -/
theorem multiReduction_maximumf_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (j : Fin b) :
    multiReduction .maximumf [0] ⟨1, ![b]⟩ src acc h hφ hacc (ix1 j)
      = (Finset.univ : Finset (Fin a)).fold max (FloatOps.ofBits (F := Ideal) φ acc) (fun k => src (ix2 k j)) := by
  refine (Ideal.multiReduction_maximumf_single src acc h hφ hacc (ix1 j)).trans ?_
  exact congrArg (fun f => (Finset.univ : Finset (Fin a)).fold max (FloatOps.ofBits (F := Ideal) φ acc) f)
    (funext fun k => congrArg src (reduces_cols_lift h j k))

end Idealize.ShloMosaic.ValueIdx
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.LibERealSums.lean ====
/-
  Finite sums of real numbers inside the extended reals. The inclusion of the reals into [−∞, +∞] carries a finite
  sum to the sum of the inclusions (by induction on the index set, from the two-term case), so a sum of products of
  included reals is the included sum of the real products.
-/
import Idealize.ShloMosaic.PureOps.Ideal

noncomputable section

namespace Cert.Attn

/-- The inclusion ℝ → [−∞, +∞] commutes with a finite sum. -/
theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The same over a whole finite type. -/
theorem coe_sum_univ {ι : Type} [Fintype ι] (f : ι → ℝ) :
    ((∑ k, f k : ℝ) : EReal) = ∑ k, ((f k : ℝ) : EReal) := coe_sum _ _

/-- A sum of products of included reals is the included sum of the products. -/
theorem sum_coe_mul_coe {ι : Type} [Fintype ι] (f g : ι → ℝ) :
    ∑ k, ((f k : ℝ) : EReal) * ((g k : ℝ) : EReal) = ((∑ k, f k * g k : ℝ) : EReal) := by
  rw [coe_sum_univ]
  exact Finset.sum_congr rfl fun k _ => (EReal.coe_mul _ _).symm

/-- The maximum, from −∞, of finitely many included reals over a nonempty index set is an included real. -/
theorem fold_max_coe_exists {ι : Type} (s : Finset ι) (hs : s.Nonempty) (f : ι → ℝ) :
    ∃ ρ : ℝ, s.fold max (⊥ : EReal) (fun k => ((f k : ℝ) : EReal)) = (ρ : EReal) := by
  classical
  induction hs using Finset.Nonempty.cons_induction with
  | singleton a => exact ⟨f a, by simp⟩
  | cons a s ha hs ih =>
    obtain ⟨ρ, hρ⟩ := ih
    refine ⟨max (f a) ρ, ?_⟩
    rw [Finset.fold_cons, hρ]
    exact (EReal.coe_strictMono.monotone.map_max).symm

end Cert.Attn

end
-- ==== Proof.LibSoftmaxShift.lean ====
/-
  The softmax of a rank-one sum, on the extended reals [−∞, +∞].

  If the logits of a row are e j = a + d j with a and every d j real numbers, then the row's maximum is a plus the
  maximum of the d j, so the shifted logits e j − max e are the shifted d j − max d: the row's softmax does not depend
  on a. Adding a real number is a monotone map of [−∞, +∞] that fixes −∞, so it commutes with a maximum folded from −∞
  (this needs no finiteness of the entries and no nonemptiness of the index set); the cancellation
  (a + x) − (a + ρ) = x − ρ is where the entries have to be real.

  Also here: the reassociation of one term of an attention product (no finiteness: the product of [−∞, +∞] is
  commutative and associative), and the two facts about a 0/1 mask m: (a · (1 − m)) · m = 0 and 1 − m ∈ {0, 1}.
-/
import Idealize.ShloMosaic.PureOps.Ideal
import proofs.«105354_j3882650436316_2_alg».proof.Proof.LibERealSums

noncomputable section

namespace Cert.GatSgc

/-- Adding a real number commutes with a binary maximum on [−∞, +∞]: x ↦ a + x is monotone. -/
theorem coe_add_max (a : ℝ) (x y : EReal) :
    (a : EReal) + max x y = max ((a : EReal) + x) ((a : EReal) + y) :=
  Monotone.map_max (f := fun z : EReal => (a : EReal) + z) (fun _ _ h => add_le_add le_rfl h)

/-- A fold of any commutative associative operation that is pointwise the maximum is the fold of the maximum. -/
theorem fold_op_eq_fold_max {ι : Type} (s : Finset ι) (op : EReal → EReal → EReal) [Std.Commutative op]
    [Std.Associative op] (hop : ∀ x y, op x y = max x y) (b : EReal) (f : ι → EReal) :
    s.fold op b f = s.fold max b f := by
  have h : op = max := funext fun x => funext fun y => hop x y
  subst h
  rfl

/-- The max-fold shift: the maximum, from −∞, of the a + f j is a plus the maximum of the f j, for a real a and ANY
    extended-real entries f j, over any finite index set (empty included: a + −∞ = −∞). -/
theorem fold_max_coe_add {ι : Type} (s : Finset ι) (a : ℝ) (f : ι → EReal) :
    s.fold max (⊥ : EReal) (fun j => (a : EReal) + f j) = (a : EReal) + s.fold max (⊥ : EReal) f := by
  classical
  induction s using Finset.induction_on with
  | empty => simp
  | insert j s hj ih => rw [Finset.fold_insert hj, Finset.fold_insert hj, ih, coe_add_max]

/-- The maximum, from −∞, of real entries over a nonempty finite type is a real number. -/
theorem fold_max_real {ι : Type} [Fintype ι] [Nonempty ι] (f : ι → EReal) (hf : ∀ j, ∃ r : ℝ, f j = (r : EReal)) :
    ∃ ρ : ℝ, Finset.univ.fold max (⊥ : EReal) f = (ρ : EReal) := by
  choose g hg using hf
  obtain ⟨ρ, hρ⟩ := Cert.Attn.fold_max_coe_exists Finset.univ Finset.univ_nonempty g
  exact ⟨ρ, by rw [show f = fun k => ((g k : ℝ) : EReal) from funext hg]; exact hρ⟩

/-- The same with the outer max(−∞, ·) both programs apply to the folded maximum. -/
theorem max_bot_fold_max_real {ι : Type} [Fintype ι] [Nonempty ι] (f : ι → EReal)
    (hf : ∀ j, ∃ r : ℝ, f j = (r : EReal)) :
    ∃ ρ : ℝ, max (⊥ : EReal) (Finset.univ.fold max (⊥ : EReal) f) = (ρ : EReal) := by
  obtain ⟨ρ, hρ⟩ := fold_max_real f hf
  exact ⟨ρ, by rw [max_bot_left, hρ]⟩

/-- The shifted logits of a rank-one row: with a and every d k real, (a + d j) − max(−∞, max_k (a + d k)) is
    d j − max(−∞, max_k d k). -/
theorem sub_max_fold_shift {ι : Type} [Fintype ι] (a : EReal) (d : ι → EReal)
    (ha : ∃ r : ℝ, a = (r : EReal)) (hd : ∀ k, ∃ r : ℝ, d k = (r : EReal)) (j : ι) :
    (a + d j) - max (⊥ : EReal) (Finset.univ.fold max (⊥ : EReal) fun k => a + d k)
      = d j - max (⊥ : EReal) (Finset.univ.fold max (⊥ : EReal) d) := by
  haveI : Nonempty ι := ⟨j⟩
  obtain ⟨a', rfl⟩ := ha
  obtain ⟨ρ, hρ⟩ := fold_max_real d hd
  obtain ⟨x, hx⟩ := hd j
  rw [fold_max_coe_add, hρ, hx, max_bot_left, max_bot_left, ← EReal.coe_add, ← EReal.coe_add, ← EReal.coe_sub,
    ← EReal.coe_sub, add_sub_add_left_eq_sub]

/-- The same when the outer maximum is taken against any b below the folded maximum (b = −∞ in the programs). -/
theorem sub_max_fold_shift_of_le {ι : Type} [Fintype ι] (a : EReal) (d : ι → EReal) (b b' : EReal)
    (ha : ∃ r : ℝ, a = (r : EReal)) (hd : ∀ k, ∃ r : ℝ, d k = (r : EReal))
    (hb : b ≤ Finset.univ.fold max (⊥ : EReal) fun k => a + d k) (hb' : b' ≤ Finset.univ.fold max (⊥ : EReal) d)
    (j : ι) :
    (a + d j) - max b (Finset.univ.fold max (⊥ : EReal) fun k => a + d k)
      = d j - max b' (Finset.univ.fold max (⊥ : EReal) d) := by
  have h := sub_max_fold_shift a d ha hd j
  rw [max_bot_left, max_bot_left] at h
  rw [max_eq_right hb, max_eq_right hb', h]

/-- The row softmax collapse. Let e k = a + d k with a and every d k real, M the row maximum max(−∞, max_k e k) and
    M' the maximum max(−∞, max_k d k). Then for ANY φ (the exponential in the programs), ψ (the quotient) and z (the
    sum's initial value): ψ (φ (e j − M)) (z + Σ_k φ (e k − M)) = ψ (φ (d j − M')) (z + Σ_k φ (d k − M')). -/
theorem softmax_row_collapse {ι : Type} [Fintype ι] (φ : EReal → EReal) (ψ : EReal → EReal → EReal) (z : EReal)
    (a : EReal) (d e : ι → EReal) (M M' : EReal)
    (ha : ∃ r : ℝ, a = (r : EReal)) (hd : ∀ k, ∃ r : ℝ, d k = (r : EReal)) (he : ∀ k, e k = a + d k)
    (hM : M = max (⊥ : EReal) (Finset.univ.fold max (⊥ : EReal) e))
    (hM' : M' = max (⊥ : EReal) (Finset.univ.fold max (⊥ : EReal) d)) (j : ι) :
    ψ (φ (e j - M)) (z + ∑ k, φ (e k - M)) = ψ (φ (d j - M')) (z + ∑ k, φ (d k - M')) := by
  have key : ∀ k, e k - M = d k - M' := by
    intro k
    rw [hM, hM', show e = fun k => a + d k from funext he]
    exact sub_max_fold_shift a d ha hd k
  simp only [key]

/-- One row of the attention product, reassociated: Σ_j (s j · adj i j) · h j f = Σ_j adj i j · (h j f · s j).
    No finiteness: the product of [−∞, +∞] is commutative and associative. -/
theorem attention_sum_comm {ι κ μ : Type} [Fintype ι] (s : ι → EReal) (adj : κ → ι → EReal) (h : ι → μ → EReal)
    (i : κ) (f : μ) :
    ∑ j, (s j * adj i j) * h j f = ∑ j, adj i j * (h j f * s j) :=
  Finset.sum_congr rfl fun j _ => by rw [mul_comm (s j) (adj i j), mul_assoc, mul_comm (s j) (h j f)]

/-- One entry of a dense attention layer with rank-one logits. The row's weights are the softmax of e i k = src i + d k
    (shifted by the row maximum M i = max(−∞, max_k e i k), written with ANY φ, ψ, z as in `softmax_row_collapse`),
    multiplied by adj i j and contracted with h; the result is adj contracted with h scaled by the ONE softmax of d:
    Σ_j (ψ (φ (e i j − M i)) (z + Σ_k φ (e i k − M i)) · adj i j) · h j f = Σ_j adj i j · (h j f · s j),
    s j = ψ (φ (d j − M')) (z + Σ_k φ (d k − M')), M' = max(−∞, max_k d k); src i and every d k real. -/
theorem attention_row_collapse {ι μ : Type} [Fintype ι] (φ : EReal → EReal) (ψ : EReal → EReal → EReal) (z : EReal)
    (src d : ι → EReal) (adj : ι → ι → EReal) (h : ι → μ → EReal)
    (hsrc : ∀ i, ∃ r : ℝ, src i = (r : EReal)) (hd : ∀ k, ∃ r : ℝ, d k = (r : EReal)) (i : ι) (f : μ) :
    ∑ j, (ψ (φ ((src i + d j) - max (⊥ : EReal) (Finset.univ.fold max (⊥ : EReal) fun k => src i + d k)))
            (z + ∑ k, φ ((src i + d k) - max (⊥ : EReal) (Finset.univ.fold max (⊥ : EReal) fun k => src i + d k)))
          * adj i j) * h j f
      = ∑ j, adj i j * (h j f * ψ (φ (d j - max (⊥ : EReal) (Finset.univ.fold max (⊥ : EReal) d)))
            (z + ∑ k, φ (d k - max (⊥ : EReal) (Finset.univ.fold max (⊥ : EReal) d)))) := by
  rw [← attention_sum_comm (fun j => ψ (φ (d j - max (⊥ : EReal) (Finset.univ.fold max (⊥ : EReal) d)))
    (z + ∑ k, φ (d k - max (⊥ : EReal) (Finset.univ.fold max (⊥ : EReal) d)))) adj h i f]
  refine Finset.sum_congr rfl fun j _ => ?_
  rw [softmax_row_collapse φ ψ z (src i) d (fun k => src i + d k) _ _ (hsrc i) hd (fun _ => rfl) rfl rfl j]

/-- 1 − 1 = 0 on [−∞, +∞]. -/
theorem one_sub_one : (1 : EReal) - 1 = 0 := by
  rw [← EReal.coe_one, ← EReal.coe_sub, sub_self, EReal.coe_zero]

/-- A 0/1 mask kills what was multiplied by its complement: (a · (1 − m)) · m = 0, for every a in [−∞, +∞]. -/
theorem mask_cancel (a m : EReal) (hm : m = 0 ∨ m = 1) : (a * (1 - m)) * m = 0 := by
  rcases hm with rfl | rfl
  · exact mul_zero _
  · rw [one_sub_one, mul_zero, zero_mul]

/-- The complement of a 0/1 mask is a 0/1 mask. -/
theorem one_sub_mask (m : EReal) (hm : m = 0 ∨ m = 1) : 1 - m = 0 ∨ 1 - m = 1 := by
  rcases hm with rfl | rfl
  · exact Or.inr (sub_zero _)
  · exact Or.inl one_sub_one

/-- A 0/1 mask and its complement are real numbers. -/
theorem mask_real (m : EReal) (hm : m = 0 ∨ m = 1) : ∃ r : ℝ, m = (r : EReal) := by
  rcases hm with rfl | rfl
  · exact ⟨0, EReal.coe_zero.symm⟩
  · exact ⟨1, EReal.coe_one.symm⟩

end Cert.GatSgc

end
-- ==== Proof.LibRealClosure.lean ====
/-
  "Every entry is a real number" propagates through the operations of a dense graph attention layer, read on the
  extended reals [−∞, +∞].

  A real number is an element of [−∞, +∞] of the form (r : ℝ). Sums, differences and products of real numbers are
  real, hence finite sums of products are; the exponential of a real number is a positive real number; a nonempty
  finite sum of positive real numbers is a positive real number; the quotient of a real number by a positive (or just
  nonzero) real number is real; the maximum of finitely many real numbers over a nonempty index set is real. So every
  entry of a softmax of real logits is real. The exponential linear unit maps a real number r to r when r > 0 and to
  exp r − 1 otherwise, a real number either way. The unsigned reading of a one-bit word is 0 or 1.
-/
import Idealize.ShloMosaic.PureOps.Ideal
import Idealize.ShloMosaic.PureOps.Ideal.Laws
import proofs.«105354_j3882650436316_2_alg».proof.Proof.LibERealSums
import proofs.«105354_j3882650436316_2_alg».proof.Proof.LibSoftmaxShift

noncomputable section

namespace Cert.GatSgc

open Idealize.ShloMosaic

/-! ### The patterns of −∞, +∞ and 1 -/

/-- The f32 pattern of −∞ denotes −∞. -/
theorem ofBits_neg_inf_f32 : Ideal.ofBits .f32 0xFF800000#32 = ⊥ := by simp [Ideal.ofBits, Ideal.ieee]

/-- The f32 pattern of +∞ denotes +∞. -/
theorem ofBits_inf_f32 : Ideal.ofBits .f32 0x7F800000#32 = ⊤ := by simp [Ideal.ofBits, Ideal.ieee]

/-- The f32 pattern of 1.0 denotes 1. -/
theorem ofBits_one_f32 : Ideal.ofBits .f32 0x3F800000#32 = 1 := by
  simp [Ideal.ofBits, Ideal.ieee, -EReal.coe_mul]; norm_num

/-- A fold of the idealized `maximumf` is the fold of the maximum of [−∞, +∞]. -/
theorem fold_maximumf_eq_fold_max {ι : Type} (s : Finset ι) (φ : FTy) (b : EReal) (f : ι → EReal) :
    s.fold (FloatOps.maximumf (F := Ideal) (φ := φ)) b f = s.fold max b f :=
  fold_op_eq_fold_max s (FloatOps.maximumf (F := Ideal) (φ := φ)) (fun _ _ => rfl) b f

/-! ### Real numbers inside [−∞, +∞] -/

/-- x is real exactly when it is neither infinity. -/
theorem real_iff_ne (x : EReal) : (∃ r : ℝ, x = (r : EReal)) ↔ x ≠ ⊥ ∧ x ≠ ⊤ := by
  constructor
  · rintro ⟨r, rfl⟩; exact ⟨EReal.coe_ne_bot r, EReal.coe_ne_top r⟩
  · rintro ⟨hb, ht⟩; exact ⟨x.toReal, (EReal.coe_toReal ht hb).symm⟩

/-- x is real exactly when |x| = max x (−x) is below +∞ (the form a finiteness precondition takes). -/
theorem real_iff_abs_lt_top (x : EReal) : (∃ r : ℝ, x = (r : EReal)) ↔ max x (-x) < ⊤ := by
  rw [real_iff_ne]
  induction x using EReal.rec with
  | bot => simp
  | top => simp
  | coe r =>
    refine iff_of_true ⟨EReal.coe_ne_bot r, EReal.coe_ne_top r⟩ ?_
    rw [← EReal.coe_neg, max_lt_iff]
    exact ⟨EReal.coe_lt_top _, EReal.coe_lt_top _⟩

theorem real_zero : ∃ r : ℝ, (0 : EReal) = (r : EReal) := ⟨0, EReal.coe_zero.symm⟩

theorem real_one : ∃ r : ℝ, (1 : EReal) = (r : EReal) := ⟨1, EReal.coe_one.symm⟩

theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

/-- A finite sum of real numbers is real. -/
theorem real_sum {ι : Type} [Fintype ι] (f : ι → EReal) (hf : ∀ k, ∃ r : ℝ, f k = (r : EReal)) :
    ∃ r : ℝ, ∑ k, f k = (r : EReal) := by
  choose g hg using hf
  exact ⟨∑ k, g k, by rw [Cert.Attn.coe_sum_univ]; exact Finset.sum_congr rfl fun k _ => hg k⟩

/-- A finite sum of products of real numbers is real. -/
theorem real_sum_mul {ι : Type} [Fintype ι] (f g : ι → EReal) (hf : ∀ k, ∃ r : ℝ, f k = (r : EReal))
    (hg : ∀ k, ∃ r : ℝ, g k = (r : EReal)) : ∃ r : ℝ, ∑ k, f k * g k = (r : EReal) :=
  real_sum _ fun k => real_mul (hf k) (hg k)

/-- The same from a zero accumulator, the form of a host product's entry. -/
theorem real_zero_add_sum_mul {ι : Type} [Fintype ι] (f g : ι → EReal) (hf : ∀ k, ∃ r : ℝ, f k = (r : EReal))
    (hg : ∀ k, ∃ r : ℝ, g k = (r : EReal)) : ∃ r : ℝ, 0 + ∑ k, f k * g k = (r : EReal) := by
  rw [zero_add]; exact real_sum_mul f g hf hg

/-! ### Exponential, positive sums, quotient: a softmax entry is real -/

/-- The exponential of a real number is a positive real number. -/
theorem exp_real_pos {x : EReal} (hx : ∃ r : ℝ, x = (r : EReal)) :
    ∃ r : ℝ, 0 < r ∧ Ideal.exp x = (r : EReal) := by
  obtain ⟨a, rfl⟩ := hx; exact ⟨Real.exp a, Real.exp_pos a, rfl⟩

/-- A finite sum of positive real numbers over a nonempty index set is a positive real number. -/
theorem sum_pos_real {ι : Type} [Fintype ι] [Nonempty ι] (f : ι → EReal)
    (hf : ∀ k, ∃ r : ℝ, 0 < r ∧ f k = (r : EReal)) : ∃ r : ℝ, 0 < r ∧ ∑ k, f k = (r : EReal) := by
  choose g hg using hf
  exact ⟨∑ k, g k, Finset.sum_pos (fun k _ => (hg k).1) Finset.univ_nonempty,
    by rw [Cert.Attn.coe_sum_univ]; exact Finset.sum_congr rfl fun k _ => (hg k).2⟩

/-- The quotient of a real number by a nonzero real number is real. -/
theorem div_real_of_ne_zero {x y : EReal} (hx : ∃ r : ℝ, x = (r : EReal)) (hy : ∃ r : ℝ, r ≠ 0 ∧ y = (r : EReal)) :
    ∃ r : ℝ, Ideal.div x y = (r : EReal) := by
  obtain ⟨a, rfl⟩ := hx; obtain ⟨b, hb, rfl⟩ := hy
  exact ⟨a * (1 / b), by rw [Ideal.div_coe hb, EReal.coe_mul]⟩

/-- The quotient of a real number by a positive real number is real. -/
theorem div_real_pos {x y : EReal} (hx : ∃ r : ℝ, x = (r : EReal)) (hy : ∃ r : ℝ, 0 < r ∧ y = (r : EReal)) :
    ∃ r : ℝ, Ideal.div x y = (r : EReal) := by
  obtain ⟨b, hb, hyb⟩ := hy; exact div_real_of_ne_zero hx ⟨b, hb.ne', hyb⟩

/-- An entry of the softmax of real logits d, shifted by a real M, the sum taken from a zero accumulator:
    exp (d j − M) / (0 + Σ_k exp (d k − M)) is real. -/
theorem softmax_entry_real {ι : Type} [Fintype ι] (d : ι → EReal) (M : EReal)
    (hd : ∀ k, ∃ r : ℝ, d k = (r : EReal)) (hM : ∃ r : ℝ, M = (r : EReal)) (j : ι) :
    ∃ r : ℝ, Ideal.div (Ideal.exp (d j - M)) (0 + ∑ k, Ideal.exp (d k - M)) = (r : EReal) := by
  haveI : Nonempty ι := ⟨j⟩
  have hpos : ∀ k, ∃ r : ℝ, 0 < r ∧ Ideal.exp (d k - M) = (r : EReal) := fun k => exp_real_pos (real_sub (hd k) hM)
  obtain ⟨e, _, he⟩ := hpos j
  refine div_real_pos ⟨e, he⟩ ?_
  rw [zero_add]; exact sum_pos_real _ hpos

/-- The same with M the maximum the programs compute, max(−∞, max_k d k). -/
theorem softmax_entry_real_max {ι : Type} [Fintype ι] (d : ι → EReal) (hd : ∀ k, ∃ r : ℝ, d k = (r : EReal))
    (j : ι) :
    ∃ r : ℝ, Ideal.div (Ideal.exp (d j - max (⊥ : EReal) (Finset.univ.fold max (⊥ : EReal) d)))
        (0 + ∑ k, Ideal.exp (d k - max (⊥ : EReal) (Finset.univ.fold max (⊥ : EReal) d))) = (r : EReal) := by
  haveI : Nonempty ι := ⟨j⟩
  exact softmax_entry_real d _ hd (max_bot_fold_max_real d hd) j

/-! ### The exponential linear unit -/

/-- The exponential linear unit as the programs compute it at one entry: v if v > 0, else 1 · (exp w − 1) with
    w = 0 if v > 0, else v. -/
def elu (v : EReal) : EReal :=
  Scalar.select (Ideal.cmp .ogt v 0) v (1 * (Ideal.exp (Scalar.select (Ideal.cmp .ogt v 0) 0 v) - 1))

/-- At a real number r the unit is r for r > 0 and exp r − 1 otherwise. -/
theorem elu_coe (r : ℝ) : elu (r : EReal) = ((if 0 < r then r else Real.exp r - 1 : ℝ) : EReal) := by
  unfold elu Scalar.select
  by_cases h : 0 < r
  · have hc : Ideal.cmp .ogt (r : EReal) 0 = 1 := by
      show BitVec.ofBool (decide ((0 : EReal) < (r : EReal))) = 1
      rw [decide_eq_true (by exact_mod_cast h)]; rfl
    rw [if_pos hc, if_pos h]
  · have hc : ¬ Ideal.cmp .ogt (r : EReal) 0 = 1 := by
      show ¬ BitVec.ofBool (decide ((0 : EReal) < (r : EReal))) = 1
      rw [decide_eq_false (by exact_mod_cast h)]; decide
    rw [if_neg hc, if_neg hc, if_neg h, one_mul, EReal.coe_sub, EReal.coe_one]
    rfl

/-- The exponential linear unit maps real numbers to real numbers. -/
theorem elu_real {v : EReal} (hv : ∃ r : ℝ, v = (r : EReal)) : ∃ r : ℝ, elu v = (r : EReal) := by
  obtain ⟨r, rfl⟩ := hv; exact ⟨_, elu_coe r⟩

/-! ### The mask -/

/-- The unsigned reading of a one-bit word is 0 or 1. -/
theorem uitofp_bit (b : BitVec 1) : ((b.toNat : ℝ) : EReal) = 0 ∨ ((b.toNat : ℝ) : EReal) = 1 := by
  have hlt : b.toNat < 2 := b.isLt
  rcases (by omega : b.toNat = 0 ∨ b.toNat = 1) with h | h
  · left; rw [h]; simp
  · right; rw [h]; simp

/-- The same for the conversion as the programs spell it. -/
theorem uitofp_i1 (φ : FTy) (b : BitVec 1) :
    FloatOps.uitofp (F := Ideal) φ b = 0 ∨ FloatOps.uitofp (F := Ideal) φ b = 1 := uitofp_bit b

end Cert.GatSgc

end
-- ==== Proof.LibFoldedSoftmax.lean ====
/-
  A masked softmax, renormalised after masking: the two normalisations folded into one quotient.

  Fix logits x and a multiplicative mask μ over a finite nonempty index set, all real numbers, and a real ε. Put
  E k = exp (x k · μ k − M) with M the maximum of the masked logits, and s = Σ E k, a positive real number. The two-step
  form first normalises, E k / s, masks again, (E k / s) · μ k, and divides by the sum of those plus ε. The folded form
  divides E j · μ j by Σ E k · μ k + ε · s. Writing a = E j · μ j and D = Σ E k · μ k + ε · s, the two-step form is
  (a / s) / (D / s): numerator and denominator both scaled by the positive real 1 / s. Off D = 0 the scaling cancels;
  at D = 0 both denominators vanish and the quotient is the infinity of the numerator's sign (or −∞ at 0 / 0), which
  the positive scaling does not change. So the two forms agree at every real input, the degenerate one included.
-/
import Idealize.ShloMosaic.PureOps.Ideal
import proofs.«105354_j3882650436316_2_alg».proof.Proof.LibERealSums

open scoped BigOperators

noncomputable section

namespace Idealize.ShloMosaic.MaskedWeights

open Idealize.ShloMosaic

variable {ι : Type} [Fintype ι]

/-- The shifted exponential of a masked logit: exp (x k · μ k − max_c x c · μ c). -/
def shifted (x μ : ι → EReal) (k : ι) : EReal :=
  Ideal.exp (x k * μ k - (Finset.univ : Finset ι).fold max (⊥ : EReal) (fun c => x c * μ c))

/-- The folded form: E j · μ j over Σ E k · μ k + ε · Σ E k. -/
def folded (ε : EReal) (x μ : ι → EReal) (j : ι) : EReal :=
  Ideal.div (shifted x μ j * μ j) ((∑ k, shifted x μ k * μ k) + ε * ∑ k, shifted x μ k)

/-- The two-step form: (E j / Σ E) · μ j over Σ (E k / Σ E) · μ k + ε. -/
def twoStep (ε : EReal) (x μ : ι → EReal) (j : ι) : EReal :=
  Ideal.div (Ideal.div (shifted x μ j) (∑ k, shifted x μ k) * μ j)
    ((∑ k, Ideal.div (shifted x μ k) (∑ c, shifted x μ c) * μ k) + ε)

/-- Scaling numerator and denominator by the same positive real leaves the quotient unchanged, also at a zero
    denominator: there the quotient is the infinity of the numerator's sign, which a positive factor keeps. -/
theorem div_scale_pos (a D s : ℝ) (hs : 0 < s) :
    Ideal.div ((a / s : ℝ) : EReal) ((D / s : ℝ) : EReal) = Ideal.div (a : EReal) (D : EReal) := by
  by_cases hD : D = 0
  · subst hD
    have h0 : ((0 / s : ℝ) : EReal) = 0 := by rw [zero_div, EReal.coe_zero]
    rw [h0]
    unfold Ideal.div
    rw [if_pos rfl, if_pos EReal.coe_zero]
    have hiff : (0 : EReal) < ((a / s : ℝ) : EReal) ↔ (0 : EReal) < (a : EReal) := by
      rw [← EReal.coe_zero, EReal.coe_lt_coe_iff, EReal.coe_lt_coe_iff]
      exact div_pos_iff_of_pos_right hs
    by_cases ha : (0 : EReal) < (a : EReal)
    · rw [if_pos ha, if_pos (hiff.mpr ha)]
    · rw [if_neg ha, if_neg (fun h => ha (hiff.mp h))]
  · have hDs : D / s ≠ 0 := div_ne_zero hD hs.ne'
    rw [Ideal.div_coe hDs, Ideal.div_coe hD, ← EReal.coe_mul, ← EReal.coe_mul]
    congr 1
    field_simp

/-- At real logits, a real mask and a real ε the two-step form is the folded form. -/
theorem twoStep_eq_folded [Nonempty ι] (ε : EReal) (x μ : ι → EReal) (hε : ∃ r : ℝ, ε = (r : EReal))
    (hx : ∀ k, ∃ r : ℝ, x k = (r : EReal)) (hμ : ∀ k, ∃ r : ℝ, μ k = (r : EReal)) :
    twoStep ε x μ = folded ε x μ := by
  classical
  obtain ⟨e, rfl⟩ := hε
  choose xr hxr using hx
  choose μr hμr using hμ
  obtain rfl : x = fun k => ((xr k : ℝ) : EReal) := funext hxr
  obtain rfl : μ = fun k => ((μr k : ℝ) : EReal) := funext hμr
  obtain ⟨M, hM⟩ := Cert.Attn.fold_max_coe_exists (Finset.univ : Finset ι) Finset.univ_nonempty (fun k => xr k * μr k)
  have hsh : ∀ k, shifted (fun k => ((xr k : ℝ) : EReal)) (fun k => ((μr k : ℝ) : EReal)) k
      = ((Real.exp (xr k * μr k - M) : ℝ) : EReal) := by
    intro k
    unfold shifted
    have hmul : (fun c => ((xr c : ℝ) : EReal) * ((μr c : ℝ) : EReal)) = fun c => ((xr c * μr c : ℝ) : EReal) :=
      funext fun c => (EReal.coe_mul _ _).symm
    rw [hmul, hM, ← EReal.coe_mul, ← EReal.coe_sub]
    rfl
  funext j
  unfold twoStep folded
  simp only [hsh]
  have hs : 0 < ∑ k, Real.exp (xr k * μr k - M) :=
    Finset.sum_pos (fun k _ => Real.exp_pos _) Finset.univ_nonempty
  have hsum : ∑ k, ((Real.exp (xr k * μr k - M) : ℝ) : EReal) = ((∑ k, Real.exp (xr k * μr k - M) : ℝ) : EReal) :=
    (Cert.Attn.coe_sum_univ _).symm
  rw [hsum]
  simp only [Ideal.div_coe hs.ne', ← EReal.coe_mul]
  rw [← Cert.Attn.coe_sum_univ, ← Cert.Attn.coe_sum_univ, ← EReal.coe_add, ← EReal.coe_add]
  rw [← div_scale_pos (Real.exp (xr j * μr j - M) * μr j) _ _ hs]
  congr 2
  · field_simp
  · rw [add_div, Finset.sum_div, mul_div_assoc, div_self hs.ne', mul_one]
    congr 1
    exact Finset.sum_congr rfl fun k _ => by field_simp

end Idealize.ShloMosaic.MaskedWeights

end
-- ==== Proof.Spec.lean ====
/-
  The two attended arrays of bidirectional masked-softmax co-attention, as functions of the four argument arrays,
  index by index, on the extended reals.

  P and H are the premise and hypothesis arrays [64, 1024, 512]; the masks are integer arrays [64, 1024], read as
  the real numbers they denote. For a batch b the similarity of premise row p and hypothesis row h is the inner
  product of the two rows. Along each premise row the similarities are weighted by the renormalised masked softmax over
  the hypothesis rows (mask: the hypothesis mask), and the attended premise is the weighted sum of hypothesis rows,
  times the premise mask at p. Symmetrically, along each hypothesis row the weights run over the premise rows (mask: the
  premise mask), and the attended hypothesis is the weighted sum of premise rows, times the hypothesis mask at h.
  The weights are taken in the folded form (one quotient); the two-step form agrees with it at real inputs.
-/
import Idealize.ShloMosaic.PureOps.Ideal
import Idealize.ShloMosaic.Lib.ValueIdx
import proofs.«105354_j3882650436316_2_alg».proof.Proof.LibFoldedSoftmax

open scoped BigOperators

noncomputable section

namespace Cert.CoAttention

open Idealize.ShloMosaic Idealize.ShloMosaic.ValueIdx Idealize.ShloMosaic.MaskedWeights

/-- The shape of the premise, hypothesis and result arrays. -/
abbrev SB : Shape := ⟨3, ![64, 1024, 512]⟩
/-- The shape of the two masks. -/
abbrev SM : Shape := ⟨2, ![64, 1024]⟩

/-- The small positive constant of the renormalisation, as the float word both programs carry. -/
def eps : EReal := Ideal.ofBits .f32 0x29E12E13#32

/-- A mask entry as the real number its integer denotes. -/
def maskAt (μ : SM.Idx → BitVec 32) (b : Fin 64) (k : Fin 1024) : EReal := (((μ (ix2 b k)).toInt : ℝ) : EReal)

/-- The similarity of premise row p and hypothesis row h of batch b: the inner product of the two rows. -/
def sim (P H : SB.Idx → EReal) (b : Fin 64) (p h : Fin 1024) : EReal :=
  ∑ c : Fin 512, P (ix3 b p c) * H (ix3 b h c)

/-- The attended premise at (b, p, d). -/
def premiseAt (P : SB.Idx → EReal) (pm : SM.Idx → BitVec 32) (H : SB.Idx → EReal) (hm : SM.Idx → BitVec 32)
    (b : Fin 64) (p : Fin 1024) (d : Fin 512) : EReal :=
  (∑ h : Fin 1024, folded eps (fun k => sim P H b p k) (fun k => maskAt hm b k) h * H (ix3 b h d)) * maskAt pm b p

/-- The attended hypothesis at (b, h, d). -/
def hypothesisAt (P : SB.Idx → EReal) (pm : SM.Idx → BitVec 32) (H : SB.Idx → EReal) (hm : SM.Idx → BitVec 32)
    (b : Fin 64) (h : Fin 1024) (d : Fin 512) : EReal :=
  (∑ p : Fin 1024, folded eps (fun k => sim P H b k h) (fun k => maskAt pm b k) p * P (ix3 b p d)) * maskAt hm b h

/-- The attended premises as one array. -/
def attendedPremises (P : SB.Idx → EReal) (pm : SM.Idx → BitVec 32) (H : SB.Idx → EReal) (hm : SM.Idx → BitVec 32) :
    SB.Idx → EReal := fun i => premiseAt P pm H hm (i 0) (i 1) (i 2)

/-- The attended hypotheses as one array. -/
def attendedHypotheses (P : SB.Idx → EReal) (pm : SM.Idx → BitVec 32) (H : SB.Idx → EReal) (hm : SM.Idx → BitVec 32) :
    SB.Idx → EReal := fun i => hypothesisAt P pm H hm (i 0) (i 1) (i 2)

end Cert.CoAttention

end
-- ==== Proof.BlockWeights.lean ====
/-
  The kernel body's two softmax directions of one batch, read at an entry.

  Along premise row p the masked logits are S(p, k) · μ(k) with μ the hypothesis mask row; the body takes their maximum
  from −∞, the shifted exponentials E, the sums Σ E and Σ E · μ, and the one quotient E · μ / (Σ E · μ + ε · Σ E): the
  folded weight of the row. Down hypothesis column h the masked logits are S(k, h) · ν(k) with ν the premise mask
  column, and the body's shifted exponentials there are those of the column.
-/
import proofs.«105354_j3882650436316_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«105354_j3882650436316_2_alg».proof.Proof.LibLaneMax
import proofs.«105354_j3882650436316_2_alg».proof.Proof.LibColumnSum
import proofs.«105354_j3882650436316_2_alg».proof.Proof.LibColumnMax
import proofs.«105354_j3882650436316_2_alg».proof.Proof.LibColumnCast
import proofs.«105354_j3882650436316_2_alg».proof.Proof.LibColumnBroadcast
import proofs.«105354_j3882650436316_2_alg».proof.Proof.LibRealClosure
import proofs.«105354_j3882650436316_2_alg».proof.Proof.BlockPieces
import proofs.«105354_j3882650436316_2_alg».proof.Proof.Spec

open scoped BigOperators

noncomputable section

namespace Cert.CoAttention.Block

open Cert.KernelIdeal Cert.KernelIdeal.Gen Idealize.ShloMosaic Idealize.ShloMosaic.ValueIdx Idealize.ShloMosaic.MaskedWeights

/-- The float word of −∞, as the vector unit's maximum starts from it, is the bottom of the extended reals. -/
theorem negInfWord : FloatOps.ofBits (F := Ideal) .f32 0xFF800000#32 = (⊥ : EReal) := Cert.GatSgc.ofBits_neg_inf_f32

/-- The row-direction weights of one batch: entry (p, h) of the body's quotient is the folded weight of premise row p at h,
    over the similarities S(p, ·) and the hypothesis mask row. -/
theorem rowWeights (v0 v2 : Vec Ideal S1x1024x512 .f32) (v9 : Vec Ideal S1x1x1024 .f32) (p h : Fin 1024) :
    k0_pay8 (F := Ideal) v0 v2 v9 (ix2 p h)
      = folded eps (fun k => k0_pay5 (F := Ideal) v0 v2 (ix2 p k)) (fun k => v9 (ix3 (0 : Fin 1) (0 : Fin 1) k)) h := by
  obtain ⟨S, hS⟩ : ∃ S : FVec Ideal S1024x1024 .f32, S = k0_pay5 (F := Ideal) v0 v2 := ⟨_, rfl⟩
  obtain ⟨μm, hμm⟩ : ∃ μm : FVec Ideal S1024x1024 .f32, μm = broadcastTo S1024x1024
      (shapeCast S1x1024 v9 shapeCasts_S1x1x1024_S1x1024) broadcasts_S1x1024_S1024x1024 := ⟨_, rfl⟩
  have hμ : ∀ q k : Fin 1024, μm (ix2 q k) = v9 (ix3 (0 : Fin 1) (0 : Fin 1) k) := fun q k => by
    rw [hμm]
    exact (broadcastTo_1b_ab_apply _ _ q k).trans (shapeCast_1ab_ab_apply v9 _ (0 : Fin 1) k)
  obtain ⟨L, hL⟩ : ∃ L : FVec Ideal S1024x1024 .f32, L = mulf S μm := ⟨_, rfl⟩
  have hLa : ∀ q k : Fin 1024, L (ix2 q k) = S (ix2 q k) * v9 (ix3 (0 : Fin 1) (0 : Fin 1) k) := fun q k => by
    rw [hL]; show S (ix2 q k) * μm (ix2 q k) = _; rw [hμ]
  obtain ⟨M, hM⟩ : ∃ M : FVec Ideal S1024x1024 .f32, M = broadcastTo S1024x1024 (shapeCast S1024x1
      (multiReduction .maximumf [1] S1024 L 0xFF800000#32 reduces_S1024x1024_S1024 (.inl rfl) rfl) shapeCasts_S1024_S1024x1)
      broadcasts_S1024x1_S1024x1024 := ⟨_, rfl⟩
  have hMa : ∀ q k : Fin 1024, M (ix2 q k)
      = (Finset.univ : Finset (Fin 1024)).fold max (⊥ : EReal) (fun c => S (ix2 q c) * v9 (ix3 (0 : Fin 1) (0 : Fin 1) c)) := fun q k => by
    rw [hM]
    refine (broadcastTo_a1_ab_apply _ _ q k).trans ?_
    refine (shapeCast_a_a1_apply _ _ q (0 : Fin 1)).trans ?_
    refine (multiReduction_maximumf_rows_apply L 0xFF800000#32 reduces_S1024x1024_S1024 (.inl rfl) rfl q).trans ?_
    rw [negInfWord]
    exact congrArg (fun f => (Finset.univ : Finset (Fin 1024)).fold max (⊥ : EReal) f) (funext fun c => hLa q c)
  obtain ⟨E, hE⟩ : ∃ E : FVec Ideal S1024x1024 .f32, E = exp (subf L M) := ⟨_, rfl⟩
  have hEa : ∀ q k : Fin 1024, E (ix2 q k)
      = shifted (fun c => S (ix2 q c)) (fun c => v9 (ix3 (0 : Fin 1) (0 : Fin 1) c)) k := fun q k => by
    rw [hE]
    show Ideal.exp (L (ix2 q k) - M (ix2 q k)) = _
    rw [hLa, hMa]
    rfl
  obtain ⟨Q, hQ⟩ : ∃ Q : FVec Ideal S1024x1024 .f32, Q = mulf E μm := ⟨_, rfl⟩
  have hQa : ∀ q k : Fin 1024, Q (ix2 q k)
      = shifted (fun c => S (ix2 q c)) (fun c => v9 (ix3 (0 : Fin 1) (0 : Fin 1) c)) k * v9 (ix3 (0 : Fin 1) (0 : Fin 1) k) := fun q k => by
    rw [hQ]; show E (ix2 q k) * μm (ix2 q k) = _; rw [hEa, hμ]
  obtain ⟨D, hD⟩ : ∃ D : FVec Ideal S1024x1024 .f32, D = broadcastTo S1024x1024
      (addf (shapeCast S1024x1 (multiReduction .add [1] S1024 Q 0x00000000#32 reduces_S1024x1024_S1024 (.inl rfl) rfl) shapeCasts_S1024_S1024x1)
        (mulf (broadcast S1024x1 (Scalar.ofBits .f32 0x29E12E13#32))
          (shapeCast S1024x1 (multiReduction .add [1] S1024 E 0x00000000#32 reduces_S1024x1024_S1024 (.inl rfl) rfl) shapeCasts_S1024_S1024x1)))
      broadcasts_S1024x1_S1024x1024 := ⟨_, rfl⟩
  have hDa : ∀ q k : Fin 1024, D (ix2 q k)
      = (∑ c : Fin 1024, shifted (fun c => S (ix2 q c)) (fun c => v9 (ix3 (0 : Fin 1) (0 : Fin 1) c)) c * v9 (ix3 (0 : Fin 1) (0 : Fin 1) c))
        + eps * ∑ c : Fin 1024, shifted (fun c => S (ix2 q c)) (fun c => v9 (ix3 (0 : Fin 1) (0 : Fin 1) c)) c := fun q k => by
    rw [hD]
    refine (broadcastTo_a1_ab_apply _ _ q k).trans ?_
    show shapeCast S1024x1 (multiReduction .add [1] S1024 Q 0x00000000#32 reduces_S1024x1024_S1024 (.inl rfl) rfl) shapeCasts_S1024_S1024x1 (ix2 q (0 : Fin 1))
        + eps * shapeCast S1024x1 (multiReduction .add [1] S1024 E 0x00000000#32 reduces_S1024x1024_S1024 (.inl rfl) rfl) shapeCasts_S1024_S1024x1 (ix2 q (0 : Fin 1)) = _
    congr 1
    · refine (shapeCast_a_a1_apply _ _ q (0 : Fin 1)).trans ?_
      refine (multiReduction_add_rows_apply Q 0x00000000#32 reduces_S1024x1024_S1024 (.inl rfl) rfl q).trans ?_
      exact Finset.sum_congr rfl fun c _ => hQa q c
    · congr 1
      refine (shapeCast_a_a1_apply _ _ q (0 : Fin 1)).trans ?_
      refine (multiReduction_add_rows_apply E 0x00000000#32 reduces_S1024x1024_S1024 (.inl rfl) rfl q).trans ?_
      exact Finset.sum_congr rfl fun c _ => hEa q c
  have key : k0_pay8 (F := Ideal) v0 v2 v9 = divf Q D := by
    rw [hD, hQ, hE, hM, hL, hμm, hS]; rfl
  rw [key, ← hS]
  show Ideal.div (Q (ix2 p h)) (D (ix2 p h)) = _
  rw [hQa, hDa]
  rfl

/-- The column-direction exponentials of one batch: entry (p, h) of the body's exponential is the shifted exponential of
    hypothesis column h at p, over the similarities S(·, h) and the premise mask column. -/
theorem columnExponentials (v0 v2 : Vec Ideal S1x1024x512 .f32) (v7 : Vec Ideal S1x1024x1 .f32) (p h : Fin 1024) :
    k0_pay9 (F := Ideal) v0 v2 v7 (ix2 p h)
      = shifted (fun k => k0_pay5 (F := Ideal) v0 v2 (ix2 k h)) (fun k => v7 (ix3 (0 : Fin 1) k (0 : Fin 1))) p := by
  obtain ⟨S, hS⟩ : ∃ S : FVec Ideal S1024x1024 .f32, S = k0_pay5 (F := Ideal) v0 v2 := ⟨_, rfl⟩
  obtain ⟨νm, hνm⟩ : ∃ νm : FVec Ideal S1024x1024 .f32, νm = broadcastTo S1024x1024 (k0_pay6 (F := Ideal) v7) broadcasts_S1024x1_S1024x1024 := ⟨_, rfl⟩
  have hν : ∀ q k : Fin 1024, νm (ix2 q k) = v7 (ix3 (0 : Fin 1) q (0 : Fin 1)) := fun q k => by
    rw [hνm]
    exact (broadcastTo_a1_ab_apply _ _ q k).trans (premiseMaskColumn v7 q (0 : Fin 1))
  obtain ⟨L, hL⟩ : ∃ L : FVec Ideal S1024x1024 .f32, L = mulf S νm := ⟨_, rfl⟩
  have hLa : ∀ q k : Fin 1024, L (ix2 q k) = S (ix2 q k) * v7 (ix3 (0 : Fin 1) q (0 : Fin 1)) := fun q k => by
    rw [hL]; show S (ix2 q k) * νm (ix2 q k) = _; rw [hν]
  obtain ⟨M, hM⟩ : ∃ M : FVec Ideal S1024x1024 .f32, M = broadcastTo S1024x1024 (shapeCast S1x1024
      (multiReduction .maximumf [0] S1024 L 0xFF800000#32 reduces_S1024x1024_S1024_2 (.inl rfl) rfl) shapeCasts_S1024_S1x1024)
      broadcasts_S1x1024_S1024x1024 := ⟨_, rfl⟩
  have hMa : ∀ q k : Fin 1024, M (ix2 q k)
      = (Finset.univ : Finset (Fin 1024)).fold max (⊥ : EReal) (fun c => S (ix2 c k) * v7 (ix3 (0 : Fin 1) c (0 : Fin 1))) := fun q k => by
    rw [hM]
    refine (broadcastTo_1b_ab_apply _ _ q k).trans ?_
    refine (shapeCast_a_1a_apply _ _ (0 : Fin 1) k).trans ?_
    refine (multiReduction_maximumf_cols_apply L 0xFF800000#32 reduces_S1024x1024_S1024_2 (.inl rfl) rfl k).trans ?_
    rw [negInfWord]
    exact congrArg (fun f => (Finset.univ : Finset (Fin 1024)).fold max (⊥ : EReal) f) (funext fun c => hLa c k)
  have key : k0_pay9 (F := Ideal) v0 v2 v7 = exp (subf L M) := by
    rw [hM, hL, hνm, hS]; rfl
  rw [key, ← hS]
  show Ideal.exp (L (ix2 p h) - M (ix2 p h)) = _
  rw [hLa, hMa]
  rfl

end Cert.CoAttention.Block

end
-- ==== Proof.BlockOutputs.lean ====
/-
  What one grid point of the kernel writes into its two output blocks, read at an entry, as a function of the five
  input blocks of that batch.

  The attended-premise block at (0, p, d) is the weighted sum over the hypothesis rows h of the hypothesis block's
  (0, h, d), with the folded weights of premise row p, times the premise mask at p: the matrix unit's product of the
  weight matrix with the hypothesis block, scaled row by row. The attended-hypothesis block at (0, h, d) is the weighted
  sum over the premise rows p of the premise block's (0, p, d), with the folded weights of hypothesis column h, times the
  hypothesis mask at h: the product of the TRANSPOSED weight matrix with the premise block (both contracting their
  first axis), scaled row by row.
-/
import proofs.«105354_j3882650436316_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«105354_j3882650436316_2_alg».proof.Proof.LibPlainMatmul
import proofs.«105354_j3882650436316_2_alg».proof.Proof.LibMatmulColsByCols
import proofs.«105354_j3882650436316_2_alg».proof.Proof.LibColumnSum
import proofs.«105354_j3882650436316_2_alg».proof.Proof.LibColumnBroadcast
import proofs.«105354_j3882650436316_2_alg».proof.Proof.BlockPieces
import proofs.«105354_j3882650436316_2_alg».proof.Proof.BlockWeights
import proofs.«105354_j3882650436316_2_alg».proof.Proof.Spec

open scoped BigOperators

noncomputable section

namespace Cert.CoAttention.Block

open Cert.KernelIdeal Cert.KernelIdeal.Gen Idealize.ShloMosaic Idealize.ShloMosaic.ValueIdx Idealize.ShloMosaic.MaskedWeights

/-- The first output block from its three operands: a weight matrix W, the hypothesis rows and the premise mask column. -/
theorem premiseProduct (v5 : FVec Ideal S1024x512 .bf16) (v8 : FVec Ideal S1024x1 .f32) (v30 : FVec Ideal S1024x1024 .f32)
    (p : Fin 1024) (d : Fin 512) :
    k0_pay1 (F := Ideal) v5 v8 v30 (ix3 (0 : Fin 1) p d)
      = (∑ h : Fin 1024, v30 (ix2 p h) * v5 (ix2 h d)) * v8 (ix2 p (0 : Fin 1)) := by
  unfold k0_pay1
  refine (shapeCast_ab_1ab_apply _ _ (0 : Fin 1) p d).trans ?_
  show matmul dot_S1024x1024_S1024x512_S1024x512_1_0_0_1_n_n none (truncf .bf16 v30 bitsLt_bf16_f32) v5
        (constant S1024x512 .f32 0x00000000#32) (ix2 p d)
      * broadcastTo S1024x512 v8 broadcasts_S1024x1_S1024x512 (ix2 p d) = _
  congr 1
  · exact matmul_plain_zero_apply dot_S1024x1024_S1024x512_S1024x512_1_0_0_1_n_n_wf none (truncf .bf16 v30 bitsLt_bf16_f32) v5 p d
  · exact broadcastTo_a1_ab_apply v8 _ p d

/-- The second output block from its four operands: the premise rows, the two mask columns and the column exponentials E. -/
theorem hypothesisProduct (v4 : FVec Ideal S1024x512 .bf16) (v8 v12 : FVec Ideal S1024x1 .f32) (v37 : FVec Ideal S1024x1024 .f32)
    (h : Fin 1024) (d : Fin 512) :
    k0_pay2 (F := Ideal) v4 v8 v12 v37 (ix3 (0 : Fin 1) h d)
      = (∑ p : Fin 1024, Ideal.div (v37 (ix2 p h) * v8 (ix2 p (0 : Fin 1)))
            ((∑ k : Fin 1024, v37 (ix2 k h) * v8 (ix2 k (0 : Fin 1))) + eps * ∑ k : Fin 1024, v37 (ix2 k h))
          * v4 (ix2 p d)) * v12 (ix2 h (0 : Fin 1)) := by
  obtain ⟨νm, hνm⟩ : ∃ νm : FVec Ideal S1024x1024 .f32, νm = broadcastTo S1024x1024 v8 broadcasts_S1024x1_S1024x1024 := ⟨_, rfl⟩
  have hν : ∀ q k : Fin 1024, νm (ix2 q k) = v8 (ix2 q (0 : Fin 1)) := fun q k => by
    rw [hνm]; exact broadcastTo_a1_ab_apply v8 _ q k
  obtain ⟨Q, hQ⟩ : ∃ Q : FVec Ideal S1024x1024 .f32, Q = mulf v37 νm := ⟨_, rfl⟩
  have hQa : ∀ q k : Fin 1024, Q (ix2 q k) = v37 (ix2 q k) * v8 (ix2 q (0 : Fin 1)) := fun q k => by
    rw [hQ]; show v37 (ix2 q k) * νm (ix2 q k) = _; rw [hν]
  obtain ⟨D, hD⟩ : ∃ D : FVec Ideal S1024x1024 .f32, D = broadcastTo S1024x1024
      (addf (shapeCast S1x1024 (multiReduction .add [0] S1024 Q 0x00000000#32 reduces_S1024x1024_S1024_2 (.inl rfl) rfl) shapeCasts_S1024_S1x1024)
        (mulf (broadcast S1x1024 (Scalar.ofBits .f32 0x29E12E13#32))
          (shapeCast S1x1024 (multiReduction .add [0] S1024 v37 0x00000000#32 reduces_S1024x1024_S1024_2 (.inl rfl) rfl) shapeCasts_S1024_S1x1024)))
      broadcasts_S1x1024_S1024x1024 := ⟨_, rfl⟩
  have hDa : ∀ q k : Fin 1024, D (ix2 q k)
      = (∑ c : Fin 1024, v37 (ix2 c k) * v8 (ix2 c (0 : Fin 1))) + eps * ∑ c : Fin 1024, v37 (ix2 c k) := fun q k => by
    rw [hD]
    refine (broadcastTo_1b_ab_apply _ _ q k).trans ?_
    show shapeCast S1x1024 (multiReduction .add [0] S1024 Q 0x00000000#32 reduces_S1024x1024_S1024_2 (.inl rfl) rfl) shapeCasts_S1024_S1x1024 (ix2 (0 : Fin 1) k)
        + eps * shapeCast S1x1024 (multiReduction .add [0] S1024 v37 0x00000000#32 reduces_S1024x1024_S1024_2 (.inl rfl) rfl) shapeCasts_S1024_S1x1024 (ix2 (0 : Fin 1) k) = _
    congr 1
    · refine (shapeCast_a_1a_apply _ _ (0 : Fin 1) k).trans ?_
      refine (multiReduction_add_cols_apply Q 0x00000000#32 reduces_S1024x1024_S1024_2 (.inl rfl) rfl k).trans ?_
      exact Finset.sum_congr rfl fun c _ => hQa c k
    · congr 1
      refine (shapeCast_a_1a_apply _ _ (0 : Fin 1) k).trans ?_
      exact multiReduction_add_cols_apply v37 0x00000000#32 reduces_S1024x1024_S1024_2 (.inl rfl) rfl k
  obtain ⟨W, hW⟩ : ∃ W : FVec Ideal S1024x1024 .bf16, W = truncf .bf16 (divf Q D) bitsLt_bf16_f32 := ⟨_, rfl⟩
  have hWa : ∀ q k : Fin 1024, W (ix2 q k) = Ideal.div (v37 (ix2 q k) * v8 (ix2 q (0 : Fin 1)))
      ((∑ c : Fin 1024, v37 (ix2 c k) * v8 (ix2 c (0 : Fin 1))) + eps * ∑ c : Fin 1024, v37 (ix2 c k)) := fun q k => by
    rw [hW]; show Ideal.div (Q (ix2 q k)) (D (ix2 q k)) = _; rw [hQa, hDa]
  have key : k0_pay2 (F := Ideal) v4 v8 v12 v37 = shapeCast S1x1024x512
      (mulf (matmul dot_S1024x1024_S1024x512_S1024x512_0_0_1_1_n_n none W v4 (constant S1024x512 .f32 0x00000000#32))
        (broadcastTo S1024x512 v12 broadcasts_S1024x1_S1024x512)) shapeCasts_S1024x512_S1x1024x512 := by
    rw [hW, hD, hQ, hνm]; rfl
  rw [key]
  refine (shapeCast_ab_1ab_apply _ _ (0 : Fin 1) h d).trans ?_
  show matmul dot_S1024x1024_S1024x512_S1024x512_0_0_1_1_n_n none W v4 (constant S1024x512 .f32 0x00000000#32) (ix2 h d)
      * broadcastTo S1024x512 v12 broadcasts_S1024x1_S1024x512 (ix2 h d) = _
  congr 1
  · refine (matmul_cols_cols_apply dot_S1024x1024_S1024x512_S1024x512_0_0_1_1_n_n_wf none W v4 h d).trans ?_
    exact Finset.sum_congr rfl fun c _ => by rw [hWa]
  · exact broadcastTo_a1_ab_apply v12 _ h d

/-- The attended-premise block of one batch at (0, p, d), from the batch's input blocks. -/
theorem premiseBlock (x0 x1 : Vec Ideal S1x1024x512 .f32) (x2 : Vec Ideal S1x1024x1 .f32) (x3 : Vec Ideal S1x1x1024 .f32)
    (p : Fin 1024) (d : Fin 512) :
    k0_pay1 (F := Ideal) (k0_pay4 x1) (k0_pay6 x2) (k0_pay8 x0 x1 x3) (ix3 (0 : Fin 1) p d)
      = (∑ h : Fin 1024, folded eps (fun k => ∑ c : Fin 512, x0 (ix3 (0 : Fin 1) p c) * x1 (ix3 (0 : Fin 1) k c))
            (fun k => x3 (ix3 (0 : Fin 1) (0 : Fin 1) k)) h * x1 (ix3 (0 : Fin 1) h d))
        * x2 (ix3 (0 : Fin 1) p (0 : Fin 1)) := by
  rw [premiseProduct, premiseMaskColumn]
  congr 1
  refine Finset.sum_congr rfl fun h _ => ?_
  rw [rowWeights, hypothesisRows]
  congr 2
  funext k
  exact similarity x0 x1 p k

/-- The attended-hypothesis block of one batch at (0, h, d), from the batch's input blocks. -/
theorem hypothesisBlock (x0 x1 : Vec Ideal S1x1024x512 .f32) (x2 x4 : Vec Ideal S1x1024x1 .f32)
    (h : Fin 1024) (d : Fin 512) :
    k0_pay2 (F := Ideal) (k0_pay3 x0) (k0_pay6 x2) (k0_pay7 x4) (k0_pay9 x0 x1 x2) (ix3 (0 : Fin 1) h d)
      = (∑ p : Fin 1024, folded eps (fun k => ∑ c : Fin 512, x0 (ix3 (0 : Fin 1) k c) * x1 (ix3 (0 : Fin 1) h c))
            (fun k => x2 (ix3 (0 : Fin 1) k (0 : Fin 1))) p * x0 (ix3 (0 : Fin 1) p d))
        * x4 (ix3 (0 : Fin 1) h (0 : Fin 1)) := by
  rw [hypothesisProduct, hypothesisMaskColumn]
  congr 1
  refine Finset.sum_congr rfl fun p _ => ?_
  rw [premiseRows]
  congr 1
  have hx : (fun k => k0_pay5 (F := Ideal) x0 x1 (ix2 k h))
      = fun k => ∑ c : Fin 512, x0 (ix3 (0 : Fin 1) k c) * x1 (ix3 (0 : Fin 1) h c) := funext fun k => similarity x0 x1 k h
  simp only [columnExponentials, premiseMaskColumn, hx]
  rfl

end Cert.CoAttention.Block

end
-- ==== Proof.KernelArrays.lean ====
/-
  The kernel's two result arrays after its run, as the specification's functions of the four argument arrays.

  The grid has one point per batch. At point t every window's block is batch t of its array: the premise and
  hypothesis blocks are rows (t, ·, ·) of the two float arguments; the three mask windows read arrays the host wrote
  before the launch — each integer mask converted to a real and given a unit axis —, so their blocks are row t of a mask.
  What point t writes back is therefore batch t of the specification's arrays, and the 64 blocks tile each result array.
-/
import proofs.«105354_j3882650436316_2_alg».proof.Proof.Gen.KernelIdeal.Value
import Idealize.ShloMosaic.Lib.ValueIdx
import Idealize.ShloMosaic.Lib.Pipeline.Value
import Idealize.ShloMosaic.Lib.StableHlo.Run
import proofs.«105354_j3882650436316_2_alg».proof.Proof.BlockOutputs
import proofs.«105354_j3882650436316_2_alg».proof.Proof.Spec

open scoped BigOperators

noncomputable section

open Idealize.ShloMosaic Idealize.ShloMosaic.TcCoe Idealize.SL.Sem
open Idealize.ShloMosaic.Pipeline (Dat)

namespace Cert.CoAttention.Arrays

open Cert.KernelIdeal Cert.KernelIdeal.Gen Cert.KernelIdeal.Value Idealize.ShloMosaic.ValueIdx Idealize.ShloMosaic.MaskedWeights
open Cert.CoAttention.Block

variable (m : (ℓ : Loc nD τ sig) → Buf (Elt Ideal) ℓ) (ρ : Dev nD → PrngReg)

theorem hz : (![0, 0, 0] : Fin 3 → Nat) = fun _ => 0 := funext fun a => by fin_cases a <;> rfl

/-- Every window's block index at grid point t is (t, 0, 0): decided over the 64 points. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0) :=
  (by decide +kernel : ∀ t : Fin grid0.N, _)

/-! ## The arrays the host wrote before the launch -/

/-- The premise mask column array [64, 1024, 1]: the premise mask as reals, a unit axis appended. -/
theorem premiseMaskColumns (c : Dev nD) : (V m c main_v2 : S64x1024x1.Idx → EReal)
    = broadcastInDim S64x1024x1 ![0, 1] bcast_S64x1024_S64x1024x1_0_1 (sitofp (F := Ideal) .f32 (m ((c : Thread nD τ).loc main_arg1))) := by
  dsimp only [Gen.V, Gen.hostOps0]; after_results

/-- The hypothesis mask row array [64, 1, 1024]: the hypothesis mask as reals, a unit axis inserted. -/
theorem hypothesisMaskRows (c : Dev nD) : (V m c main_v3 : S64x1x1024.Idx → EReal)
    = broadcastInDim S64x1x1024 ![0, 2] bcast_S64x1024_S64x1x1024_0_2 (sitofp (F := Ideal) .f32 (m ((c : Thread nD τ).loc main_arg3))) := by
  dsimp only [Gen.V, Gen.hostOps0]; after_results

/-- The hypothesis mask column array [64, 1024, 1]. -/
theorem hypothesisMaskColumns (c : Dev nD) : (V m c main_v4 : S64x1024x1.Idx → EReal)
    = broadcastInDim S64x1024x1 ![0, 1] bcast_S64x1024_S64x1024x1_0_1 (sitofp (F := Ideal) .f32 (m ((c : Thread nD τ).loc main_arg3))) := by
  dsimp only [Gen.V, Gen.hostOps0]; after_results

/-! ## Each input block at a point, as batch t of its array -/

/-- The premise block at point t is rows (t, ·, ·) of the premise argument. -/
theorem premiseBlockAt (c : Dev nD) (t : Fin cfg0.N) (b : Fin 64) (hb : b.val = t.val) (u : Fin 1) (p : Fin 1024) (k : Fin 512) :
    (iblk m c 0 t : Vec Ideal S1x1024x512 .f32) (ix3 u p k)
      = (m ((c : Thread nD τ).loc main_arg0) : S64x1024x512.Idx → EReal) (ix3 b p k) := by
  obtain ⟨⟨h0, h1, h2⟩, -⟩ := idx_facts t
  have hu : u.val = 0 := by omega
  unfold iblk
  rw [View.read_apply]
  show V m c main_arg0 _ = _
  rw [V_main_arg0]
  refine congrArg _ (funext fun a => Fin.ext ?_)
  match a with
  | ⟨0, _⟩ => show win0_0.index t (0 : Fin 3) * 1 + 1 * u.val = b.val; omega
  | ⟨1, _⟩ => show win0_0.index t (1 : Fin 3) * 1024 + 1 * p.val = p.val; omega
  | ⟨2, _⟩ => show win0_0.index t (2 : Fin 3) * 512 + 1 * k.val = k.val; omega

/-- The hypothesis block at point t is rows (t, ·, ·) of the hypothesis argument. -/
theorem hypothesisBlockAt (c : Dev nD) (t : Fin cfg0.N) (b : Fin 64) (hb : b.val = t.val) (u : Fin 1) (h : Fin 1024) (k : Fin 512) :
    (iblk m c 1 t : Vec Ideal S1x1024x512 .f32) (ix3 u h k)
      = (m ((c : Thread nD τ).loc main_arg2) : S64x1024x512.Idx → EReal) (ix3 b h k) := by
  obtain ⟨-, ⟨h0, h1, h2⟩, -⟩ := idx_facts t
  have hu : u.val = 0 := by omega
  unfold iblk
  rw [View.read_apply]
  show V m c main_arg2 _ = _
  rw [V_main_arg2]
  refine congrArg _ (funext fun a => Fin.ext ?_)
  match a with
  | ⟨0, _⟩ => show win0_1.index t (0 : Fin 3) * 1 + 1 * u.val = b.val; omega
  | ⟨1, _⟩ => show win0_1.index t (1 : Fin 3) * 1024 + 1 * h.val = h.val; omega
  | ⟨2, _⟩ => show win0_1.index t (2 : Fin 3) * 512 + 1 * k.val = k.val; omega

/-- The premise mask column block at point t is row t of the premise mask. -/
theorem premiseMaskAt (c : Dev nD) (t : Fin cfg0.N) (b : Fin 64) (hb : b.val = t.val) (u : Fin 1) (p : Fin 1024) (v : Fin 1) :
    (iblk m c 2 t : Vec Ideal S1x1024x1 .f32) (ix3 u p v) = maskAt (m ((c : Thread nD τ).loc main_arg1)) b p := by
  obtain ⟨-, -, ⟨h0, h1, h2⟩, -⟩ := idx_facts t
  have hu : u.val = 0 := by omega
  unfold iblk
  rw [View.read_apply]
  show V m c main_v2 _ = _
  rw [premiseMaskColumns]
  refine (broadcastInDim_apply _ _ _ _ (ix2 b p) fun a => ?_).trans rfl
  match a with
  | ⟨0, _⟩ => show b.val = win0_2.index t (0 : Fin 3) * 1 + 1 * u.val; omega
  | ⟨1, _⟩ => show p.val = win0_2.index t (1 : Fin 3) * 1024 + 1 * p.val; omega

/-- The hypothesis mask row block at point t is row t of the hypothesis mask. -/
theorem hypothesisMaskRowAt (c : Dev nD) (t : Fin cfg0.N) (b : Fin 64) (hb : b.val = t.val) (u v : Fin 1) (k : Fin 1024) :
    (iblk m c 3 t : Vec Ideal S1x1x1024 .f32) (ix3 u v k) = maskAt (m ((c : Thread nD τ).loc main_arg3)) b k := by
  obtain ⟨-, -, -, ⟨h0, h1, h2⟩, -⟩ := idx_facts t
  have hu : u.val = 0 := by omega
  unfold iblk
  rw [View.read_apply]
  show V m c main_v3 _ = _
  rw [hypothesisMaskRows]
  refine (broadcastInDim_apply _ _ _ _ (ix2 b k) fun a => ?_).trans rfl
  match a with
  | ⟨0, _⟩ => show b.val = win0_3.index t (0 : Fin 3) * 1 + 1 * u.val; omega
  | ⟨1, _⟩ => show k.val = win0_3.index t (2 : Fin 3) * 1024 + 1 * k.val; omega

/-- The hypothesis mask column block at point t is row t of the hypothesis mask. -/
theorem hypothesisMaskAt (c : Dev nD) (t : Fin cfg0.N) (b : Fin 64) (hb : b.val = t.val) (u : Fin 1) (h : Fin 1024) (v : Fin 1) :
    (iblk m c 4 t : Vec Ideal S1x1024x1 .f32) (ix3 u h v) = maskAt (m ((c : Thread nD τ).loc main_arg3)) b h := by
  obtain ⟨-, -, -, -, ⟨h0, h1, h2⟩, -⟩ := idx_facts t
  have hu : u.val = 0 := by omega
  unfold iblk
  rw [View.read_apply]
  show V m c main_v4 _ = _
  rw [hypothesisMaskColumns]
  refine (broadcastInDim_apply _ _ _ _ (ix2 b h) fun a => ?_).trans rfl
  match a with
  | ⟨0, _⟩ => show b.val = win0_4.index t (0 : Fin 3) * 1 + 1 * u.val; omega
  | ⟨1, _⟩ => show h.val = win0_4.index t (1 : Fin 3) * 1024 + 1 * h.val; omega

/-! ## What a point writes back -/

/-- One batch's attended-premise block from blocks that ARE batch b of the arrays: the attended premise at (b, p, d). -/
theorem premiseOfBatch (x0 x1 : Vec Ideal S1x1024x512 .f32) (x2 : Vec Ideal S1x1024x1 .f32) (x3 : Vec Ideal S1x1x1024 .f32)
    (P H : SB.Idx → EReal) (pm hm : SM.Idx → BitVec 32) (b : Fin 64)
    (e0 : ∀ (p : Fin 1024) (k : Fin 512), x0 (ix3 (0 : Fin 1) p k) = P (ix3 b p k))
    (e1 : ∀ (h : Fin 1024) (k : Fin 512), x1 (ix3 (0 : Fin 1) h k) = H (ix3 b h k))
    (e2 : ∀ p : Fin 1024, x2 (ix3 (0 : Fin 1) p (0 : Fin 1)) = maskAt pm b p)
    (e3 : ∀ k : Fin 1024, x3 (ix3 (0 : Fin 1) (0 : Fin 1) k) = maskAt hm b k) (p : Fin 1024) (d : Fin 512) :
    k0_pay1 (F := Ideal) (k0_pay4 x1) (k0_pay6 x2) (k0_pay8 x0 x1 x3) (ix3 (0 : Fin 1) p d) = premiseAt P pm H hm b p d := by
  refine (premiseBlock x0 x1 x2 x3 p d).trans ?_
  have hx : (fun k : Fin 1024 => ∑ cc : Fin 512, x0 (ix3 (0 : Fin 1) p cc) * x1 (ix3 (0 : Fin 1) k cc))
      = fun k => sim P H b p k := funext fun k => by
    unfold sim
    exact Finset.sum_congr rfl fun cc _ => by rw [e0, e1]
  have hμ : (fun k : Fin 1024 => x3 (ix3 (0 : Fin 1) (0 : Fin 1) k)) = fun k => maskAt hm b k := funext e3
  unfold premiseAt
  rw [e2, hx, hμ]
  refine congrArg (fun s => s * maskAt pm b p) ?_
  exact Finset.sum_congr rfl fun h _ => by rw [e1]

/-- One batch's attended-hypothesis block from blocks that ARE batch b of the arrays: the attended hypothesis at (b, h, d). -/
theorem hypothesisOfBatch (x0 x1 : Vec Ideal S1x1024x512 .f32) (x2 x4 : Vec Ideal S1x1024x1 .f32)
    (P H : SB.Idx → EReal) (pm hm : SM.Idx → BitVec 32) (b : Fin 64)
    (e0 : ∀ (p : Fin 1024) (k : Fin 512), x0 (ix3 (0 : Fin 1) p k) = P (ix3 b p k))
    (e1 : ∀ (h : Fin 1024) (k : Fin 512), x1 (ix3 (0 : Fin 1) h k) = H (ix3 b h k))
    (e2 : ∀ p : Fin 1024, x2 (ix3 (0 : Fin 1) p (0 : Fin 1)) = maskAt pm b p)
    (e4 : ∀ h : Fin 1024, x4 (ix3 (0 : Fin 1) h (0 : Fin 1)) = maskAt hm b h) (h : Fin 1024) (d : Fin 512) :
    k0_pay2 (F := Ideal) (k0_pay3 x0) (k0_pay6 x2) (k0_pay7 x4) (k0_pay9 x0 x1 x2) (ix3 (0 : Fin 1) h d) = hypothesisAt P pm H hm b h d := by
  refine (hypothesisBlock x0 x1 x2 x4 h d).trans ?_
  have hx : (fun k : Fin 1024 => ∑ cc : Fin 512, x0 (ix3 (0 : Fin 1) k cc) * x1 (ix3 (0 : Fin 1) h cc))
      = fun k => sim P H b k h := funext fun k => by
    unfold sim
    exact Finset.sum_congr rfl fun cc _ => by rw [e0, e1]
  have hμ : (fun k : Fin 1024 => x2 (ix3 (0 : Fin 1) k (0 : Fin 1))) = fun k => maskAt pm b k := funext e2
  unfold hypothesisAt
  rw [e4, hx, hμ]
  refine congrArg (fun s => s * maskAt hm b h) ?_
  exact Finset.sum_congr rfl fun p _ => by rw [e0]

/-- The entry (0, p, d) of what point t leaves in the first output window is the attended premise at (t, p, d). -/
theorem premiseEntry (c : Dev nD) (t : Fin cfg0.N) (b : Fin 64) (hb : b.val = t.val) (p : Fin 1024) (d : Fin 512) :
    k0_pay1 (F := Ideal) (k0_pay4 (iblk m c 1 t)) (k0_pay6 (iblk m c 2 t)) (k0_pay8 (iblk m c 0 t) (iblk m c 1 t) (iblk m c 3 t))
        (ix3 (0 : Fin 1) p d)
      = premiseAt (m ((c : Thread nD τ).loc main_arg0)) (m ((c : Thread nD τ).loc main_arg1)) (m ((c : Thread nD τ).loc main_arg2)) (m ((c : Thread nD τ).loc main_arg3)) b p d :=
  premiseOfBatch (iblk m c 0 t) (iblk m c 1 t) (iblk m c 2 t) (iblk m c 3 t) _ _ _ _ b
    (fun p k => premiseBlockAt m c t b hb _ p k) (fun h k => hypothesisBlockAt m c t b hb _ h k)
    (fun p => premiseMaskAt m c t b hb _ p _) (fun k => hypothesisMaskRowAt m c t b hb _ _ k) p d

/-- The entry (0, h, d) of what point t leaves in the second output window is the attended hypothesis at (t, h, d). -/
theorem hypothesisEntry (c : Dev nD) (t : Fin cfg0.N) (b : Fin 64) (hb : b.val = t.val) (h : Fin 1024) (d : Fin 512) :
    k0_pay2 (F := Ideal) (k0_pay3 (iblk m c 0 t)) (k0_pay6 (iblk m c 2 t)) (k0_pay7 (iblk m c 4 t)) (k0_pay9 (iblk m c 0 t) (iblk m c 1 t) (iblk m c 2 t))
        (ix3 (0 : Fin 1) h d)
      = hypothesisAt (m ((c : Thread nD τ).loc main_arg0)) (m ((c : Thread nD τ).loc main_arg1)) (m ((c : Thread nD τ).loc main_arg2)) (m ((c : Thread nD τ).loc main_arg3)) b h d :=
  hypothesisOfBatch (iblk m c 0 t) (iblk m c 1 t) (iblk m c 2 t) (iblk m c 4 t) _ _ _ _ b
    (fun p k => premiseBlockAt m c t b hb _ p k) (fun h k => hypothesisBlockAt m c t b hb _ h k)
    (fun p => premiseMaskAt m c t b hb _ p _) (fun h => hypothesisMaskAt m c t b hb _ h _) h d

/-- WHAT POINT t WRITES BACK to the first result array is block t of the attended premises. -/
theorem flushed5_eq (c : Dev nD) (t : Fin cfg0.N) :
    (dats m 0 c).flushed 5 t = ((cfg0.win 5).blk t).view.read (Elt Ideal) (attendedPremises (m ((c : Thread nD τ).loc main_arg0)) (m ((c : Thread nD τ).loc main_arg1)) (m ((c : Thread nD τ).loc main_arg2)) (m ((c : Thread nD τ).loc main_arg3))) := by
  obtain ⟨h0, h1, h2⟩ := (idx_facts t).2.2.2.2.2.1
  have hN : cfg0.N = 64 := N_0
  have htN : t.val < 64 := by have := t.isLt; omega
  rw [flushed5]
  unfold out0_5
  rw [View.canon_unit_zero hz]
  simp only [View.ld_unit_zero (S := S1x1024x512) hz, View.ld_unit_zero (S := S1x1024x1) hz, View.ld_unit_zero (S := S1x1x1024) hz]
  funext y
  have hy0 : (y 0).val < 1 := (y 0).isLt
  have hy : (y : S1x1024x512.Idx) = ix3 (0 : Fin 1) (y 1) (y 2) := by
    refine (eq_ix3 (y : S1x1024x512.Idx)).trans ?_
    refine congrArg (fun q : Fin 1 => ix3 q (y 1) (y 2)) (Fin.ext ?_)
    show (y 0).val = 0
    omega
  show k0_pay1 (F := Ideal) (k0_pay4 (iblk m c 1 t)) (k0_pay6 (iblk m c 2 t)) (k0_pay8 (iblk m c 0 t) (iblk m c 1 t) (iblk m c 3 t)) (y : S1x1024x512.Idx)
      = attendedPremises (m ((c : Thread nD τ).loc main_arg0)) (m ((c : Thread nD τ).loc main_arg1)) (m ((c : Thread nD τ).loc main_arg2)) (m ((c : Thread nD τ).loc main_arg3)) (((cfg0.win 5).blk t).view.emb y)
  refine (congrArg (k0_pay1 (F := Ideal) (k0_pay4 (iblk m c 1 t)) (k0_pay6 (iblk m c 2 t)) (k0_pay8 (iblk m c 0 t) (iblk m c 1 t) (iblk m c 3 t))) hy).trans ?_
  refine (premiseEntry m c t ⟨t.val, htN⟩ rfl (y 1) (y 2)).trans ?_
  unfold attendedPremises
  have e0 : (⟨t.val, htN⟩ : Fin 64) = (((cfg0.win 5).blk t).view.emb y : S64x1024x512.Idx) 0 := Fin.ext (by
    show t.val = win0_5.index t (0 : Fin 3) * 1 + 1 * (y 0).val
    omega)
  have e1 : (y 1 : Fin 1024) = (((cfg0.win 5).blk t).view.emb y : S64x1024x512.Idx) 1 := Fin.ext (by
    show (y 1).val = win0_5.index t (1 : Fin 3) * 1024 + 1 * (y 1).val
    omega)
  have e2 : (y 2 : Fin 512) = (((cfg0.win 5).blk t).view.emb y : S64x1024x512.Idx) 2 := Fin.ext (by
    show (y 2).val = win0_5.index t (2 : Fin 3) * 512 + 1 * (y 2).val
    omega)
  rw [← e0, ← e1, ← e2]

/-- An index of the array is in point t's block iff each coordinate is in the block's range on its axis. -/
theorem mem_blk5 (t : Fin cfg0.N) (i : S64x1024x512.Idx) :
    i ∈ ((cfg0.win 5).blk t).view.set ↔ ∀ a : Fin 3, win0_5.index t a * S1x1024x512.size a ≤ (i a).val ∧ (i a).val < win0_5.index t a * S1x1024x512.size a + S1x1024x512.size a := by
  show i ∈ ((View.whole main_v5_0).slice (win0_5.rect t)).set ↔ _
  rw [View.set_slice_whole, Rect.mem_set_unit]
  exact Iff.rfl

/-- The 64 blocks tile the array: index (b, ·, ·) is in point b's block. -/
theorem cover5 (i : S64x1024x512.Idx) : ∃ t : Fin cfg0.N, (cfg0.win 5).flush t = true ∧ i ∈ ((cfg0.win 5).blk t).view.set := by
  have hN : cfg0.N = 64 := N_0
  have hi0 : (i 0).val < 64 := (i 0).isLt
  have hi1 : (i 1).val < 1024 := (i 1).isLt
  have hi2 : (i 2).val < 512 := (i 2).isLt
  obtain ⟨t, ht⟩ : ∃ t : Fin cfg0.N, t.val = (i 0).val := ⟨⟨(i 0).val, by omega⟩, rfl⟩
  obtain ⟨h0, h1, h2⟩ := (idx_facts t).2.2.2.2.2.1
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 512 ≤ (i 2).val ∧ (i 2).val < win0_5.index t (2 : Fin 3) * 512 + 512; omega

/-- THE ARRAY after the run. -/
theorem final5 (c : Dev nD) : (dats m 0 c).arrAt 5 cfg0.N = attendedPremises (m ((c : Thread nD τ).loc main_arg0)) (m ((c : Thread nD τ).loc main_arg1)) (m ((c : Thread nD τ).loc main_arg2)) (m ((c : Thread nD τ).loc main_arg3)) :=
  (dats m 0 c).arrAt_eq_of_cover 5 (attendedPremises (m ((c : Thread nD τ).loc main_arg0)) (m ((c : Thread nD τ).loc main_arg1)) (m ((c : Thread nD τ).loc main_arg2)) (m ((c : Thread nD τ).loc main_arg3))) (fun t _ => flushed5_eq m c t) cover5

/-- WHAT POINT t WRITES BACK to the second result array is block t of the attended hypotheses. -/
theorem flushed6_eq (c : Dev nD) (t : Fin cfg0.N) :
    (dats m 0 c).flushed 6 t = ((cfg0.win 6).blk t).view.read (Elt Ideal) (attendedHypotheses (m ((c : Thread nD τ).loc main_arg0)) (m ((c : Thread nD τ).loc main_arg1)) (m ((c : Thread nD τ).loc main_arg2)) (m ((c : Thread nD τ).loc main_arg3))) := by
  obtain ⟨h0, h1, h2⟩ := (idx_facts t).2.2.2.2.2.2
  have hN : cfg0.N = 64 := N_0
  have htN : t.val < 64 := by have := t.isLt; omega
  rw [flushed6]
  unfold out0_6
  rw [View.canon_unit_zero hz]
  simp only [View.ld_unit_zero (S := S1x1024x512) hz, View.ld_unit_zero (S := S1x1024x1) hz, View.ld_unit_zero (S := S1x1x1024) hz]
  funext y
  have hy0 : (y 0).val < 1 := (y 0).isLt
  have hy : (y : S1x1024x512.Idx) = ix3 (0 : Fin 1) (y 1) (y 2) := by
    refine (eq_ix3 (y : S1x1024x512.Idx)).trans ?_
    refine congrArg (fun q : Fin 1 => ix3 q (y 1) (y 2)) (Fin.ext ?_)
    show (y 0).val = 0
    omega
  show k0_pay2 (F := Ideal) (k0_pay3 (iblk m c 0 t)) (k0_pay6 (iblk m c 2 t)) (k0_pay7 (iblk m c 4 t)) (k0_pay9 (iblk m c 0 t) (iblk m c 1 t) (iblk m c 2 t)) (y : S1x1024x512.Idx)
      = attendedHypotheses (m ((c : Thread nD τ).loc main_arg0)) (m ((c : Thread nD τ).loc main_arg1)) (m ((c : Thread nD τ).loc main_arg2)) (m ((c : Thread nD τ).loc main_arg3)) (((cfg0.win 6).blk t).view.emb y)
  refine (congrArg (k0_pay2 (F := Ideal) (k0_pay3 (iblk m c 0 t)) (k0_pay6 (iblk m c 2 t)) (k0_pay7 (iblk m c 4 t)) (k0_pay9 (iblk m c 0 t) (iblk m c 1 t) (iblk m c 2 t))) hy).trans ?_
  refine (hypothesisEntry m c t ⟨t.val, htN⟩ rfl (y 1) (y 2)).trans ?_
  unfold attendedHypotheses
  have e0 : (⟨t.val, htN⟩ : Fin 64) = (((cfg0.win 6).blk t).view.emb y : S64x1024x512.Idx) 0 := Fin.ext (by
    show t.val = win0_6.index t (0 : Fin 3) * 1 + 1 * (y 0).val
    omega)
  have e1 : (y 1 : Fin 1024) = (((cfg0.win 6).blk t).view.emb y : S64x1024x512.Idx) 1 := Fin.ext (by
    show (y 1).val = win0_6.index t (1 : Fin 3) * 1024 + 1 * (y 1).val
    omega)
  have e2 : (y 2 : Fin 512) = (((cfg0.win 6).blk t).view.emb y : S64x1024x512.Idx) 2 := Fin.ext (by
    show (y 2).val = win0_6.index t (2 : Fin 3) * 512 + 1 * (y 2).val
    omega)
  rw [← e0, ← e1, ← e2]

/-- An index of the array is in point t's block iff each coordinate is in the block's range on its axis. -/
theorem mem_blk6 (t : Fin cfg0.N) (i : S64x1024x512.Idx) :
    i ∈ ((cfg0.win 6).blk t).view.set ↔ ∀ a : Fin 3, win0_6.index t a * S1x1024x512.size a ≤ (i a).val ∧ (i a).val < win0_6.index t a * S1x1024x512.size a + S1x1024x512.size a := by
  show i ∈ ((View.whole main_v5_1).slice (win0_6.rect t)).set ↔ _
  rw [View.set_slice_whole, Rect.mem_set_unit]
  exact Iff.rfl

/-- The 64 blocks tile the array: index (b, ·, ·) is in point b's block. -/
theorem cover6 (i : S64x1024x512.Idx) : ∃ t : Fin cfg0.N, (cfg0.win 6).flush t = true ∧ i ∈ ((cfg0.win 6).blk t).view.set := by
  have hN : cfg0.N = 64 := N_0
  have hi0 : (i 0).val < 64 := (i 0).isLt
  have hi1 : (i 1).val < 1024 := (i 1).isLt
  have hi2 : (i 2).val < 512 := (i 2).isLt
  obtain ⟨t, ht⟩ : ∃ t : Fin cfg0.N, t.val = (i 0).val := ⟨⟨(i 0).val, by omega⟩, rfl⟩
  obtain ⟨h0, h1, h2⟩ := (idx_facts t).2.2.2.2.2.2
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 512 ≤ (i 2).val ∧ (i 2).val < win0_6.index t (2 : Fin 3) * 512 + 512; omega

/-- THE ARRAY after the run. -/
theorem final6 (c : Dev nD) : (dats m 0 c).arrAt 6 cfg0.N = attendedHypotheses (m ((c : Thread nD τ).loc main_arg0)) (m ((c : Thread nD τ).loc main_arg1)) (m ((c : Thread nD τ).loc main_arg2)) (m ((c : Thread nD τ).loc main_arg3)) :=
  (dats m 0 c).arrAt_eq_of_cover 6 (attendedHypotheses (m ((c : Thread nD τ).loc main_arg0)) (m ((c : Thread nD τ).loc main_arg1)) (m ((c : Thread nD τ).loc main_arg2)) (m ((c : Thread nD τ).loc main_arg3))) (fun t _ => flushed6_eq m c t) cover6

/-! ## The run, read -/

/-- The kernel's run with both result arrays named: the attended premises and the attended hypotheses of the
    argument arrays, the arguments unchanged. -/
theorem run : θ_run defs (onTc (τ := τ) (main (F := Ideal))) ⟨m, fun _ => 0, ρ⟩ fun r => ∀ c : Dev nD,
      r.2.mem ((c : Thread nD τ).loc main_v5_0) = attendedPremises (m ((c : Thread nD τ).loc main_arg0)) (m ((c : Thread nD τ).loc main_arg1)) (m ((c : Thread nD τ).loc main_arg2)) (m ((c : Thread nD τ).loc main_arg3))
      ∧ r.2.mem ((c : Thread nD τ).loc main_v5_1) = attendedHypotheses (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final5 m c), (h c).2.1.trans (final6 m c), (h c).2.2⟩)
    (run_blocks m ρ)

end Cert.CoAttention.Arrays

end
-- ==== Proof.LibLastAxis3.lean ====
/-
  Rank-3 arrays reduced along their LAST axis and spread back over it, read at an index given by coordinates:
  a `[a,b]` array cast to `[a,b,1]`, an `[a,b,1]` array broadcast to `[a,b,c]`, and the three reductions of an
  `[a,b,c]` array over axis 2 at the exact extended reals — the vector unit's maximum and sum, and the host's
  maximum — each as a fold or a sum over the last coordinate.
-/
import Idealize.ShloMosaic.PureOps.Ideal.Laws
import Idealize.ShloMosaic.Lib.Pipeline.Value
import Idealize.ShloMosaic.Lib.ValueIdx

noncomputable section

namespace Idealize.ShloMosaic.LastAxis3

open Idealize.ShloMosaic Idealize.ShloMosaic.ValueIdx

variable {α : Type}

/-- An `[a,b]` array cast to `[a,b,1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a,b,1]` array broadcast to `[a,b,c]` reads, at `(i, j, r)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (r : Fin c) :
    broadcastTo ⟨3, ![a, b, c]⟩ v h (ix3 i j r) = v (ix3 i j (0 : Fin 1)) := by
  refine broadcastTo_apply v h (ix3 i j r) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The index a reduction over axis 2 inserts the coordinate `k` into: `(i, j)` becomes `(i, j, k)`. -/
theorem lift_last {a b c : ℕ} (h : (⟨3, ![a, b, c]⟩ : Shape).Reduces [2] ⟨2, ![a, b]⟩) (i : Fin a) (j : Fin b) (k : Fin c) :
    h.lift (ix2 i j) k = ix3 i j k :=
  funext fun ax => Fin.ext (by
    match ax with
    | ⟨0, _⟩ => rfl
    | ⟨1, _⟩ => rfl
    | ⟨2, _⟩ => rfl)

variable {φ : FTy}

/-- The vector unit's sum of an `[a,b,c]` array over its last axis, at `(i, j)`: the sum over `k` of the source at `(i, j, k)`. -/
theorem multiReduction_add_last_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  rw [Ideal.multiReduction_add_single]
  exact Finset.sum_congr rfl fun k _ => congrArg src (lift_last h i j k)

/-- The vector unit's maximum of an `[a,b,c]` array over its last axis, at `(i, j)`: the fold of `max`, from the accumulator
    word's value, over `k` of the source at `(i, j, k)`. -/
theorem multiReduction_maximumf_last_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) := by
  rw [Ideal.multiReduction_maximumf_single]
  have e : src ∘ h.lift (ix2 i j) = fun k => src (ix3 i j k) := funext fun k => congrArg src (lift_last h i j k)
  rw [e]
  rfl

/-- The host's maximum of an `[a,b,c]` array over its last axis, at `(i, j)`: the fold of `max`, from the initial value, over
    `k` of the operand at `(i, j, k)`. -/
theorem hostReduce_maximumf_last_apply {a b c : ℕ} {u : Shape} (x : (⟨3, ![a, b, c]⟩ : Shape).Idx → Ideal φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (FloatOps.maximumf (F := Ideal) (φ := φ)) x init h' hu (ix2 i j)
      = (Finset.univ : Finset (Fin c)).fold max (init (Shape.Idx.first hu)) (fun k => x (ix3 i j k)) := by
  rw [Host.reduce_eq_fold_single (FloatOps.maximumf (F := Ideal) (φ := φ)) x init h' h hu]
  have e : x ∘ h.lift (ix2 i j) = fun k => x (ix3 i j k) := funext fun k => congrArg x (lift_last h i j k)
  rw [e]
  rfl

end Idealize.ShloMosaic.LastAxis3

end
-- ==== Proof.ReferenceValue.lean ====
/-
  The reference program's two results, read index by index on the extended reals, are the two attended arrays of the
  specification.

  The reference forms the similarities sim(b, p, h) = Σ_d P(b, p, d) · H(b, h, d) once, and then, along the hypothesis
  rows h with the hypothesis mask (and, on the transposed similarities, along the premise rows p with the premise mask),
  the chain: masked logit x · μ, its maximum M over the row (taken from −∞, and once more against −∞, which changes
  nothing), E = exp (x · μ − M), s = Σ E, the quotient E / s, the masked quotient (E / s) · μ, its sum plus ε, and the
  second quotient. That is the two-step form of the renormalised masked softmax. The attended array is the weighted sum of
  the other side's rows, times the own side's mask.

  Each stage is read at explicit coordinates (b, p, h): a broadcast reads its operand at the coordinates it keeps, a sum
  from the zero word is the sum, a maximum from the word of −∞ is the maximum from −∞. At real inputs every similarity is a
  finite sum of products of reals, hence real; a mask entry is an integer, hence real; ε is the value of a float word whose
  exponent field is not all ones, hence real. So the two-step form is the folded form, which is what the specification
  states.
-/
import proofs.«105354_j3882650436316_2_alg».proof.Proof.Gen.ReferenceIdeal.Read
import proofs.«105354_j3882650436316_2_alg».proof.Proof.Spec
import proofs.«105354_j3882650436316_2_alg».proof.Proof.LibLastAxis3
import proofs.«105354_j3882650436316_2_alg».proof.Proof.LibRealClosure
import proofs.«105354_j3882650436316_2_alg».proof.Proof.LibFoldedSoftmax

open scoped BigOperators

noncomputable section

namespace Cert.CoAttention.Reference

open Cert.ReferenceIdeal Cert.ReferenceIdeal.Read Cert.ReferenceIdeal.Gen Idealize.ShloMosaic Idealize.ShloMosaic.ValueIdx
  Idealize.ShloMosaic.MaskedWeights Idealize.ShloMosaic.LastAxis3

/-- A float array of the premise / hypothesis shape, and an integer mask, as the reference's stages take them. -/
abbrev FArr := (⟨S64x1024x512, .f32⟩ : BufTy).Contents (Elt Ideal)
abbrev MArr := (⟨S64x1024, .i32⟩ : BufTy).Contents (Elt Ideal)

/-- Two indices into a rank-3 (rank-2) shape with the same coordinates are the same index. -/
local macro "idx3" : tactic =>
  `(tactic| exact funext fun a => Fin.ext (by match a with | ⟨0, _⟩ => rfl | ⟨1, _⟩ => rfl | ⟨2, _⟩ => rfl))
local macro "idx2" : tactic =>
  `(tactic| exact funext fun a => Fin.ext (by match a with | ⟨0, _⟩ => rfl | ⟨1, _⟩ => rfl))

/-! ### The constants -/

/-- A float word whose exponent field is not all ones denotes a real number (zero, a subnormal or a normal one). -/
theorem ieee_real (e m : ℕ) {w : ℕ} (b : BitVec w) (hex : (b.extractLsb' m e).toNat ≠ 2 ^ e - 1) :
    ∃ r : ℝ, Ideal.ieee e m b = (r : EReal) := by
  unfold Ideal.ieee
  dsimp only
  rw [if_neg hex]
  split_ifs <;> exact ⟨_, rfl⟩

/-- ε is a real number: the exponent field of its word is 83, not 255. -/
theorem eps_real : ∃ r : ℝ, eps = (r : EReal) := by
  show ∃ r : ℝ, Ideal.ieee 8 23 (0x29E12E13#32 : BitVec 32) = (r : EReal)
  exact ieee_real 8 23 _ (by decide)

/-- The word of −∞, as the reference's maxima start from it. -/
theorem neg_inf_word : FloatOps.ofBits (F := Ideal) .f32 0xFF800000#32 = (⊥ : EReal) := Cert.GatSgc.ofBits_neg_inf_f32

/-- The zero word, as the reference's sums start from it. -/
theorem zero_word : FloatOps.ofBits (F := Ideal) .f32 0x00000000#32 = (0 : EReal) := Ideal.ofBits_zero_f32

/-- The shape fact naming the index a reduction over the last axis inserts. -/
theorem reduces_last : S64x1024x1024.Reduces [2] S64x1024 := by decide

/-! ### Real inputs give real similarities and real mask entries -/

theorem sim_real (P H : FArr) (h0 : ∀ i, ∃ r : ℝ, P i = (r : EReal)) (h2 : ∀ i, ∃ r : ℝ, H i = (r : EReal))
    (b : Fin 64) (p h : Fin 1024) : ∃ r : ℝ, sim P H b p h = (r : EReal) :=
  Cert.GatSgc.real_sum_mul _ _ (fun c => h0 (ix3 b p c)) (fun c => h2 (ix3 b h c))

theorem maskAt_real (μ : MArr) (b : Fin 64) (k : Fin 1024) : ∃ r : ℝ, maskAt μ b k = (r : EReal) := ⟨_, rfl⟩

/-! ### The similarities and the broadcast masks -/

/-- The similarity stage at (b, p, h) is the inner product of premise row p and hypothesis row h. -/
theorem v2_at (P H : FArr) (b : Fin 64) (p h : Fin 1024) :
    val_main_v2 (F := Ideal) P H (ix3 b p h) = sim P H b p h := by
  rw [val_main_v2_apply]
  refine Finset.sum_congr rfl fun k _ => ?_
  have el : lidx_main_v2 (ix3 b p h) k = ix3 b p k := by idx3
  have er : ridx_main_v2 (ix3 b p h) k = ix3 b h k := by idx3
  rw [el, er]

/-- The hypothesis mask spread over the premise rows: at (b, p, h) it is the mask at (b, h). -/
theorem v4_at (hm : MArr) (b : Fin 64) (p h : Fin 1024) :
    val_main_v4 (F := Ideal) hm (ix3 b p h) = maskAt hm b h := by
  rw [val_main_v4_apply, val_main_v3_apply, val_main_v1_apply]
  have e : idx_main_v3 (idx_main_v4 (ix3 b p h)) = ix2 b h := by idx2
  rw [e]; rfl

/-- The masked logit at (b, p, h). -/
theorem v5_at (P H : FArr) (hm : MArr) (b : Fin 64) (p h : Fin 1024) :
    val_main_v5 (F := Ideal) P H hm (ix3 b p h) = sim P H b p h * maskAt hm b h := by
  rw [val_main_v5_apply, v2_at, v4_at]; rfl

/-! ### Along the hypothesis rows -/

/-- The row maximum at (b, p): the maximum from −∞ of the masked logits of the row. -/
theorem v8_at (P H : FArr) (hm : MArr) (b : Fin 64) (p : Fin 1024) :
    val_main_v8 (F := Ideal) P H hm (ix2 b p)
      = (Finset.univ : Finset (Fin 1024)).fold max (⊥ : EReal) (fun c => sim P H b p c * maskAt hm b c) := by
  have h6 : val_main_v6 (F := Ideal) P H hm (ix2 b p)
      = (Finset.univ : Finset (Fin 1024)).fold max (⊥ : EReal) (fun c => sim P H b p c * maskAt hm b c) := by
    unfold val_main_v6
    refine (hostReduce_maximumf_last_apply _ _ reducesTo_S64x1024x1024_S64x1024_d2 reduces_last h_S_ b p).trans ?_
    rw [val_main_cst_apply, neg_inf_word]
    exact congrArg (fun f => (Finset.univ : Finset (Fin 1024)).fold max (⊥ : EReal) f) (funext fun c => v5_at P H hm b p c)
  rw [val_main_v8_apply, val_main_v7_apply, val_main_cst_0_apply, neg_inf_word, h6]
  exact max_bot_left _

/-- The shifted exponential at (b, p, h). -/
theorem v12_at (P H : FArr) (hm : MArr) (b : Fin 64) (p h : Fin 1024) :
    val_main_v12 (F := Ideal) P H hm (ix3 b p h) = shifted (fun k => sim P H b p k) (fun k => maskAt hm b k) h := by
  rw [val_main_v12_apply, val_main_v11_apply, val_main_v10_apply, val_main_v9_apply]
  have e : idx_main_v9 (idx_main_v10 (ix3 b p h)) = ix2 b p := by idx2
  rw [e, v8_at, v5_at]; rfl

/-- The row sum of the shifted exponentials at (b, p). -/
theorem v13_at (P H : FArr) (hm : MArr) (b : Fin 64) (p : Fin 1024) :
    val_main_v13 (F := Ideal) P H hm (ix2 b p)
      = ∑ k : Fin 1024, shifted (fun k => sim P H b p k) (fun k => maskAt hm b k) k := by
  rw [val_main_v13_apply, val_main_cst_1_apply, zero_word, zero_add]
  refine Finset.sum_congr rfl fun k _ => ?_
  have e : idx_main_v13 (ix2 b p) k = ix3 b p k := by idx3
  rw [e, v12_at]

/-- The first quotient at (b, p, h). -/
theorem v16_at (P H : FArr) (hm : MArr) (b : Fin 64) (p h : Fin 1024) :
    val_main_v16 (F := Ideal) P H hm (ix3 b p h)
      = Ideal.div (shifted (fun k => sim P H b p k) (fun k => maskAt hm b k) h)
          (∑ k : Fin 1024, shifted (fun k => sim P H b p k) (fun k => maskAt hm b k) k) := by
  rw [val_main_v16_apply, val_main_v15_apply, val_main_v14_apply]
  have e : idx_main_v14 (idx_main_v15 (ix3 b p h)) = ix2 b p := by idx2
  rw [e, v13_at, v12_at]; rfl

/-- The hypothesis mask spread over the premise rows a second time. -/
theorem v17_at (hm : MArr) (b : Fin 64) (p h : Fin 1024) :
    val_main_v17 (F := Ideal) hm (ix3 b p h) = maskAt hm b h := by
  rw [val_main_v17_apply, val_main_v3_apply, val_main_v1_apply]
  have e : idx_main_v3 (idx_main_v17 (ix3 b p h)) = ix2 b h := by idx2
  rw [e]; rfl

/-- The masked first quotient at (b, p, h). -/
theorem v18_at (P H : FArr) (hm : MArr) (b : Fin 64) (p h : Fin 1024) :
    val_main_v18 (F := Ideal) P H hm (ix3 b p h)
      = Ideal.div (shifted (fun k => sim P H b p k) (fun k => maskAt hm b k) h)
          (∑ k : Fin 1024, shifted (fun k => sim P H b p k) (fun k => maskAt hm b k) k) * maskAt hm b h := by
  rw [val_main_v18_apply, v16_at, v17_at]; rfl

/-- The second denominator at (b, p): the row sum of the masked quotients, plus ε. -/
theorem v22_at (P H : FArr) (hm : MArr) (b : Fin 64) (p : Fin 1024) (u : Fin 1) :
    val_main_v22 (F := Ideal) P H hm (ix3 b p u)
      = (∑ k : Fin 1024, Ideal.div (shifted (fun k => sim P H b p k) (fun k => maskAt hm b k) k)
          (∑ c : Fin 1024, shifted (fun k => sim P H b p k) (fun k => maskAt hm b k) c) * maskAt hm b k) + eps := by
  rw [val_main_v22_apply, val_main_v20_apply, val_main_v21_apply, val_main_cst_3_apply, val_main_v19_apply,
    val_main_cst_2_apply, zero_word, zero_add]
  refine congrArg₂ (· + ·) (Finset.sum_congr rfl fun k _ => ?_) rfl
  have e : idx_main_v19 (idx_main_v20 (ix3 b p u)) k = ix3 b p k := by idx3
  rw [e, v18_at]

/-- The weight at (b, p, h): the two-step renormalised masked softmax of row (b, p). -/
theorem v24_at (P H : FArr) (hm : MArr) (b : Fin 64) (p h : Fin 1024) :
    val_main_v24 (F := Ideal) P H hm (ix3 b p h)
      = twoStep eps (fun k => sim P H b p k) (fun k => maskAt hm b k) h := by
  rw [val_main_v24_apply, val_main_v23_apply]
  have e : idx_main_v23 (ix3 b p h) = ix3 b p (0 : Fin 1) := by idx3
  rw [e, v22_at, v18_at]; rfl

/-! ### The attended premises -/

/-- The weighted sum of hypothesis rows at (b, p, d). -/
theorem v48_at (P H : FArr) (hm : MArr) (b : Fin 64) (p : Fin 1024) (d : Fin 512) :
    val_main_v48 (F := Ideal) P H hm (ix3 b p d)
      = ∑ h : Fin 1024, twoStep eps (fun k => sim P H b p k) (fun k => maskAt hm b k) h * H (ix3 b h d) := by
  rw [val_main_v48_apply]
  refine Finset.sum_congr rfl fun k _ => ?_
  have el : lidx_main_v48 (ix3 b p d) k = ix3 b p k := by idx3
  have er : ridx_main_v48 (ix3 b p d) k = ix3 b k d := by idx3
  rw [el, er, v24_at]

/-- The premise mask spread over the feature axis: at (b, p, d) it is the mask at (b, p). -/
theorem v50_at (pm : MArr) (b : Fin 64) (p : Fin 1024) (d : Fin 512) :
    val_main_v50 (F := Ideal) pm (ix3 b p d) = maskAt pm b p := by
  rw [val_main_v50_apply, val_main_v49_apply, val_main_v0_apply]
  have e : idx_main_v49 (idx_main_v50 (ix3 b p d)) = ix2 b p := by idx2
  rw [e]; rfl

/-- The reference's first result is the attended premises. -/
theorem premises_eq
    (x0 : (⟨S64x1024x512, .f32⟩ : BufTy).Contents (Elt Ideal)) (x1 : (⟨S64x1024, .i32⟩ : BufTy).Contents (Elt Ideal))
    (x2 : (⟨S64x1024x512, .f32⟩ : BufTy).Contents (Elt Ideal)) (x3 : (⟨S64x1024, .i32⟩ : BufTy).Contents (Elt Ideal))
    (h0 : ∀ i, ∃ r : ℝ, x0 i = (r : EReal)) (h2 : ∀ i, ∃ r : ℝ, x2 i = (r : EReal)) :
    Cert.ReferenceIdeal.Read.val_main_v51 (F := Ideal) x0 x1 x2 x3 = Cert.CoAttention.attendedPremises x0 x1 x2 x3 := by
  funext i
  obtain ⟨b, p, d, rfl⟩ : ∃ (b : Fin 64) (p : Fin 1024) (d : Fin 512), i = ix3 b p d := ⟨i 0, i 1, i 2, eq_ix3 i⟩
  rw [val_main_v51_apply, v48_at, v50_at,
    twoStep_eq_folded eps (fun k => sim x0 x2 b p k) (fun k => maskAt x3 b k) eps_real
      (fun k => sim_real x0 x2 h0 h2 b p k) (fun k => maskAt_real x3 b k)]
  rfl

/-! ### Along the premise rows: the transposed similarities with the premise mask -/

/-- The transposed similarity stage at (b, h, p) is the similarity of premise row p and hypothesis row h. -/
theorem v25_at (P H : FArr) (b : Fin 64) (h p : Fin 1024) :
    val_main_v25 (F := Ideal) P H (ix3 b h p) = sim P H b p h := by
  rw [val_main_v25_apply]
  have e : idx_main_v25 (ix3 b h p) = ix3 b p h := by idx3
  rw [e, v2_at]

/-- The premise mask spread over the hypothesis rows: at (b, h, p) it is the mask at (b, p). -/
theorem v27_at (pm : MArr) (b : Fin 64) (h p : Fin 1024) :
    val_main_v27 (F := Ideal) pm (ix3 b h p) = maskAt pm b p := by
  rw [val_main_v27_apply, val_main_v26_apply, val_main_v0_apply]
  have e : idx_main_v26 (idx_main_v27 (ix3 b h p)) = ix2 b p := by idx2
  rw [e]; rfl

/-- The masked logit at (b, h, p). -/
theorem v28_at (P : FArr) (pm : MArr) (H : FArr) (b : Fin 64) (h p : Fin 1024) :
    val_main_v28 (F := Ideal) P pm H (ix3 b h p) = sim P H b p h * maskAt pm b p := by
  rw [val_main_v28_apply, v25_at, v27_at]; rfl

/-- The row maximum at (b, h): the maximum from −∞ of the masked logits of the row. -/
theorem v31_at (P : FArr) (pm : MArr) (H : FArr) (b : Fin 64) (h : Fin 1024) :
    val_main_v31 (F := Ideal) P pm H (ix2 b h)
      = (Finset.univ : Finset (Fin 1024)).fold max (⊥ : EReal) (fun c => sim P H b c h * maskAt pm b c) := by
  have h29 : val_main_v29 (F := Ideal) P pm H (ix2 b h)
      = (Finset.univ : Finset (Fin 1024)).fold max (⊥ : EReal) (fun c => sim P H b c h * maskAt pm b c) := by
    unfold val_main_v29
    refine (hostReduce_maximumf_last_apply _ _ reducesTo_S64x1024x1024_S64x1024_d2 reduces_last h_S_ b h).trans ?_
    rw [val_main_cst_4_apply, neg_inf_word]
    exact congrArg (fun f => (Finset.univ : Finset (Fin 1024)).fold max (⊥ : EReal) f)
      (funext fun c => v28_at P pm H b h c)
  rw [val_main_v31_apply, val_main_v30_apply, val_main_cst_5_apply, neg_inf_word, h29]
  exact max_bot_left _

/-- The shifted exponential at (b, h, p). -/
theorem v35_at (P : FArr) (pm : MArr) (H : FArr) (b : Fin 64) (h p : Fin 1024) :
    val_main_v35 (F := Ideal) P pm H (ix3 b h p) = shifted (fun k => sim P H b k h) (fun k => maskAt pm b k) p := by
  rw [val_main_v35_apply, val_main_v34_apply, val_main_v33_apply, val_main_v32_apply]
  have e : idx_main_v32 (idx_main_v33 (ix3 b h p)) = ix2 b h := by idx2
  rw [e, v31_at, v28_at]; rfl

/-- The row sum of the shifted exponentials at (b, h). -/
theorem v36_at (P : FArr) (pm : MArr) (H : FArr) (b : Fin 64) (h : Fin 1024) :
    val_main_v36 (F := Ideal) P pm H (ix2 b h)
      = ∑ k : Fin 1024, shifted (fun k => sim P H b k h) (fun k => maskAt pm b k) k := by
  rw [val_main_v36_apply, val_main_cst_6_apply, zero_word, zero_add]
  refine Finset.sum_congr rfl fun k _ => ?_
  have e : idx_main_v36 (ix2 b h) k = ix3 b h k := by idx3
  rw [e, v35_at]

/-- The first quotient at (b, h, p). -/
theorem v39_at (P : FArr) (pm : MArr) (H : FArr) (b : Fin 64) (h p : Fin 1024) :
    val_main_v39 (F := Ideal) P pm H (ix3 b h p)
      = Ideal.div (shifted (fun k => sim P H b k h) (fun k => maskAt pm b k) p)
          (∑ k : Fin 1024, shifted (fun k => sim P H b k h) (fun k => maskAt pm b k) k) := by
  rw [val_main_v39_apply, val_main_v38_apply, val_main_v37_apply]
  have e : idx_main_v37 (idx_main_v38 (ix3 b h p)) = ix2 b h := by idx2
  rw [e, v36_at, v35_at]; rfl

/-- The premise mask spread over the hypothesis rows a second time. -/
theorem v40_at (pm : MArr) (b : Fin 64) (h p : Fin 1024) :
    val_main_v40 (F := Ideal) pm (ix3 b h p) = maskAt pm b p := by
  rw [val_main_v40_apply, val_main_v26_apply, val_main_v0_apply]
  have e : idx_main_v26 (idx_main_v40 (ix3 b h p)) = ix2 b p := by idx2
  rw [e]; rfl

/-- The masked first quotient at (b, h, p). -/
theorem v41_at (P : FArr) (pm : MArr) (H : FArr) (b : Fin 64) (h p : Fin 1024) :
    val_main_v41 (F := Ideal) P pm H (ix3 b h p)
      = Ideal.div (shifted (fun k => sim P H b k h) (fun k => maskAt pm b k) p)
          (∑ k : Fin 1024, shifted (fun k => sim P H b k h) (fun k => maskAt pm b k) k) * maskAt pm b p := by
  rw [val_main_v41_apply, v39_at, v40_at]; rfl

/-- The second denominator at (b, h): the row sum of the masked quotients, plus ε. -/
theorem v45_at (P : FArr) (pm : MArr) (H : FArr) (b : Fin 64) (h : Fin 1024) (u : Fin 1) :
    val_main_v45 (F := Ideal) P pm H (ix3 b h u)
      = (∑ k : Fin 1024, Ideal.div (shifted (fun k => sim P H b k h) (fun k => maskAt pm b k) k)
          (∑ c : Fin 1024, shifted (fun k => sim P H b k h) (fun k => maskAt pm b k) c) * maskAt pm b k) + eps := by
  rw [val_main_v45_apply, val_main_v43_apply, val_main_v44_apply, val_main_cst_8_apply, val_main_v42_apply,
    val_main_cst_7_apply, zero_word, zero_add]
  refine congrArg₂ (· + ·) (Finset.sum_congr rfl fun k _ => ?_) rfl
  have e : idx_main_v42 (idx_main_v43 (ix3 b h u)) k = ix3 b h k := by idx3
  rw [e, v41_at]

/-- The weight at (b, h, p): the two-step renormalised masked softmax of row (b, h). -/
theorem v47_at (P : FArr) (pm : MArr) (H : FArr) (b : Fin 64) (h p : Fin 1024) :
    val_main_v47 (F := Ideal) P pm H (ix3 b h p)
      = twoStep eps (fun k => sim P H b k h) (fun k => maskAt pm b k) p := by
  rw [val_main_v47_apply, val_main_v46_apply]
  have e : idx_main_v46 (ix3 b h p) = ix3 b h (0 : Fin 1) := by idx3
  rw [e, v45_at, v41_at]; rfl

/-! ### The attended hypotheses -/

/-- The weighted sum of premise rows at (b, h, d). -/
theorem v52_at (P : FArr) (pm : MArr) (H : FArr) (b : Fin 64) (h : Fin 1024) (d : Fin 512) :
    val_main_v52 (F := Ideal) P pm H (ix3 b h d)
      = ∑ p : Fin 1024, twoStep eps (fun k => sim P H b k h) (fun k => maskAt pm b k) p * P (ix3 b p d) := by
  rw [val_main_v52_apply]
  refine Finset.sum_congr rfl fun k _ => ?_
  have el : lidx_main_v52 (ix3 b h d) k = ix3 b h k := by idx3
  have er : ridx_main_v52 (ix3 b h d) k = ix3 b k d := by idx3
  rw [el, er, v47_at]

/-- The hypothesis mask spread over the feature axis: at (b, h, d) it is the mask at (b, h). -/
theorem v54_at (hm : MArr) (b : Fin 64) (h : Fin 1024) (d : Fin 512) :
    val_main_v54 (F := Ideal) hm (ix3 b h d) = maskAt hm b h := by
  rw [val_main_v54_apply, val_main_v53_apply, val_main_v1_apply]
  have e : idx_main_v53 (idx_main_v54 (ix3 b h d)) = ix2 b h := by idx2
  rw [e]; rfl

/-- The reference's second result is the attended hypotheses. -/
theorem hypotheses_eq
    (x0 : (⟨S64x1024x512, .f32⟩ : BufTy).Contents (Elt Ideal)) (x1 : (⟨S64x1024, .i32⟩ : BufTy).Contents (Elt Ideal))
    (x2 : (⟨S64x1024x512, .f32⟩ : BufTy).Contents (Elt Ideal)) (x3 : (⟨S64x1024, .i32⟩ : BufTy).Contents (Elt Ideal))
    (h0 : ∀ i, ∃ r : ℝ, x0 i = (r : EReal)) (h2 : ∀ i, ∃ r : ℝ, x2 i = (r : EReal)) :
    Cert.ReferenceIdeal.Read.val_main_v55 (F := Ideal) x0 x1 x2 x3 = Cert.CoAttention.attendedHypotheses x0 x1 x2 x3 := by
  funext i
  obtain ⟨b, h, d, rfl⟩ : ∃ (b : Fin 64) (h : Fin 1024) (d : Fin 512), i = ix3 b h d := ⟨i 0, i 1, i 2, eq_ix3 i⟩
  rw [val_main_v55_apply, v52_at, v54_at,
    twoStep_eq_folded eps (fun k => sim x0 x2 b k h) (fun k => maskAt x1 b k) eps_real
      (fun k => sim_real x0 x2 h0 h2 b k h) (fun k => maskAt_real x1 b k)]
  rfl

end Cert.CoAttention.Reference

end
-- ==== Proof.LibFiniteEntry.lean ====
/-
  "|x| < +∞" on the extended reals means x is a real number.

  A precondition of the form "every entry is finite" compares max(x, −x) with the float word of +∞ (0x7F800000, which
  denotes ⊤). At x = ⊥ and at x = ⊤ that maximum is ⊤, and ⊤ < ⊤ fails; so where the comparison's bit is 1, x is the
  image of a real number.
-/
import Idealize.ShloMosaic.PureOps.Ideal

namespace Idealize.ShloMosaic.Ideal

/-- An extended real whose absolute value is below the float word of +∞ is a real number. -/
theorem real_of_abs_lt_inf (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => exfalso; simp [Ideal.cmp] at h
  | coe r => exact ⟨r, rfl⟩
  | top => exfalso; simp [Ideal.cmp] at h

end Idealize.ShloMosaic.Ideal
-- ==== Proof.Finite.lean ====
/-
  The precondition "every float input is finite", read entry by entry: every entry of the premise and of the
  hypothesis array is a real number.

  The precondition is the conjunction of two "all" reductions of the comparison |x| < +∞, one per float argument. A
  conjunction of one-bit words that is 1 has both words 1; an "all" reduction that is 1 had a 1 at every index; and on the
  extended reals |x| < +∞ fails at both infinities, so it leaves the real numbers.
-/
import proofs.«105354_j3882650436316_2_alg».proof.Pre_finite_inputs
import Idealize.ShloMosaic.PureOps.Ideal
import Idealize.ShloMosaic.Lib.ReduceAll
import Idealize.ShloMosaic.Lib.Affine
import Idealize.ShloMosaic.Lib.ValueIdx
import proofs.«105354_j3882650436316_2_alg».proof.Proof.LibFiniteEntry

open scoped BigOperators

noncomputable section

namespace Cert.CoAttention.Finite

open Idealize.ShloMosaic Cert.Pre_finite_inputs

instance : Subsingleton S_.Idx := ⟨fun _ _ => funext fun d => d.elim0⟩

/-- Where the precondition's bit is 1, every entry of both float arguments is a real number. -/
theorem real_of_pre [Cert.Pre_finite_inputs.Facts] (a0 : FVec Ideal S64x1024x512 .f32) (a1 : IVec S64x1024 32)
    (a2 : FVec Ideal S64x1024x512 .f32) (a3 : IVec S64x1024 32)
    (h : Cert.Pre_finite_inputs.fn (F := Ideal) a0 a1 a2 a3 = fun _ => 1#1) :
    (∀ i, ∃ r : ℝ, a0 i = (r : EReal)) ∧ (∀ i, ∃ r : ℝ, a2 i = (r : EReal)) := by
  have h1 := congrFun h ValueIdx.ix0
  dsimp only [Cert.Pre_finite_inputs.fn] at h1
  obtain ⟨e0, e2⟩ := IntOp.andi_eq_one.mp h1
  exact ⟨fun i => Ideal.real_of_abs_lt_inf (a0 i) (Host.reduce_andi_all _ _ _ _ _ e0 i),
    fun i => Ideal.real_of_abs_lt_inf (a2 i) (Host.reduce_andi_all _ _ _ _ _ e2 i)⟩

end Cert.CoAttention.Finite

end
-- ==== Proof.lean ====
/-
  Bidirectional masked-softmax co-attention: a kernel that keeps one batch's similarity matrix resident and folds the
  two normalisations of each softmax direction into one quotient, against the plain two-step reference.

  Per batch b the similarity of premise row p and hypothesis row h is their inner product. Along a premise row the
  reference takes the softmax of the similarities times the hypothesis mask, multiplies by the mask again and divides by
  the row sum plus ε; the kernel divides E · μ by Σ E · μ + ε · Σ E, with E the shifted exponentials. Numerator and
  denominator of the reference's second quotient are those of the kernel's, both divided by the positive real Σ E, so
  the quotients agree — also where the denominator vanishes, since a positive factor keeps the numerator's sign. The
  attended premise is the weighted sum of hypothesis rows times the premise mask; the attended hypothesis is the mirror
  image along the hypothesis rows. The argument needs every similarity to be a real number, which is where the
  precondition (every float input finite) is used; the masks are integers and need nothing.

  The kernel side: one grid point per batch; what a point writes back is batch t of the specification's two arrays, and
  the 64 blocks tile each result array. The reference side: its stages read at coordinates give the two-step form, which
  the law turns into the folded form. The three frames are the generated ones (the reference's is its run with the
  results dropped); the idealization rewrote no operation, so there is nothing to preserve beyond `True`.
-/
import proofs.«105354_j3882650436316_2_alg».proof.Defs
import proofs.«105354_j3882650436316_2_alg».proof.Proof.Gen.Kernel
import proofs.«105354_j3882650436316_2_alg».proof.Proof.Gen.Kernel.Skeleton
import proofs.«105354_j3882650436316_2_alg».proof.Proof.Gen.Kernel.Launch
import proofs.«105354_j3882650436316_2_alg».proof.Proof.Gen.Kernel.Points
import proofs.«105354_j3882650436316_2_alg».proof.Proof.Gen.Kernel.Frame
import proofs.«105354_j3882650436316_2_alg».proof.Proof.Gen.KernelIdeal
import proofs.«105354_j3882650436316_2_alg».proof.Proof.Gen.KernelIdeal.Skeleton
import proofs.«105354_j3882650436316_2_alg».proof.Proof.Gen.KernelIdeal.Launch
import proofs.«105354_j3882650436316_2_alg».proof.Proof.Gen.KernelIdeal.Points
import proofs.«105354_j3882650436316_2_alg».proof.Proof.Gen.KernelIdeal.Frame
import proofs.«105354_j3882650436316_2_alg».proof.Proof.Gen.ReferenceIdeal
import proofs.«105354_j3882650436316_2_alg».proof.Proof.Gen.Pre_finite_inputs
import proofs.«105354_j3882650436316_2_alg».proof.Proof.Gen.KernelIdeal.Value
import proofs.«105354_j3882650436316_2_alg».proof.Proof.Gen.ReferenceIdeal.Run
import proofs.«105354_j3882650436316_2_alg».proof.Proof.Gen.ReferenceIdeal.Read
import proofs.«105354_j3882650436316_2_alg».proof.Proof.KernelArrays
import proofs.«105354_j3882650436316_2_alg».proof.Proof.ReferenceValue
import proofs.«105354_j3882650436316_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs, from memories agreeing on the arguments, end with the attended premises and the attended hypotheses
    of the kernel's argument arrays: the kernel by its blocks, the reference by the folding law at real inputs. -/
theorem algebraic : Cert.algebraic_KernelIdeal_ReferenceIdeal := by
  intro m ρ m' ρ' hpre hagree
  refine ⟨fun c => Cert.CoAttention.attendedPremises (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.CoAttention.attendedHypotheses (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.CoAttention.Arrays.run m ρ, ?_⟩
  refine (θ_run Cert.ReferenceIdeal.defs _ _).mono (fun _ h c => ?_) (Cert.ReferenceIdeal.Value.run (F := Ideal) m' ρ')
  obtain ⟨hP, hH⟩ := Cert.CoAttention.Finite.real_of_pre _ _ _ _ (hpre c)
  obtain ⟨a0, a1, a2, a3⟩ := hagree c
  refine ⟨(h c).1.trans ?_, (h c).2.1.trans ?_, (h c).2.2⟩
  · rw [Cert.ReferenceIdeal.Read.val_main_v51_eq, a0, a1, a2, a3]
    exact Cert.CoAttention.Reference.premises_eq _ _ _ _ hP hH
  · rw [Cert.ReferenceIdeal.Read.val_main_v55_eq, a0, a1, a2, a3]
    exact Cert.CoAttention.Reference.hypotheses_eq _ _ _ _ hP hH

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
